-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16384 : Shape := ⟨2, ![4096, 16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S8192x4096 .f32) (main_arg1 : FVec F S4096x16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S8192x4096 : Shape := ⟨2, ![8192, 4096]⟩
abbrev S4096x16384 : Shape := ⟨2, ![4096, 16384]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1x16384 : Shape := ⟨2, ![1, 16384]⟩
abbrev S4096x512 : Shape := ⟨2, ![4096, 512]⟩
abbrev S1x512 : Shape := ⟨2, ![1, 512]⟩
abbrev S8192x16384 : Shape := ⟨2, ![8192, 16384]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 7
  | .vmem => 23
  | .smem => 0
  | _ => 0

abbrev bufTy : (tb : Table) → Fin (tcTables nBuf tb) → BufTy
  | .hbm, ⟨0, _⟩ => ⟨S8192x4096, .f32⟩
  | .hbm, ⟨1, _⟩ => ⟨S4096x16384, .f32⟩
  | .hbm, ⟨2, _⟩ => ⟨S8192x4096, .bf16⟩
  | .hbm, ⟨3, _⟩ => ⟨S8192x1, .f32⟩
  | .hbm, ⟨4, _⟩ => ⟨S4096x16384, .bf16⟩
  | .hbm, ⟨5, _⟩ => ⟨S1x16384, .f32⟩
  | .hbm, ⟨6, _⟩ => ⟨S8192x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S4096x512, .f32⟩
  | .local _ .vmem, ⟨7, _⟩ => ⟨S4096x512, .f32⟩
  | .local _ .vmem, ⟨8, _⟩ => ⟨S4096x512, .bf16⟩
  | .local _ .vmem, ⟨9, _⟩ => ⟨S4096x512, .bf16⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![8, 16, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  broadcasts_S1x512_S4096x512 : S1x512.Broadcasts S4096x512
  packedbf16_S4096x512_S4096x512_0_0 : (Rect.unit (s := S4096x512) ![0, 0] S4096x512.size inb_S4096x512_S4096x512_0_0).PackedRows (EltTy.packing .bf16)
  inb_S1x512_S1x512_0_0 : ∀ a, (![0, 0] : Fin 2 → Nat) a + S1x512.size a ≤ S1x512.size a
  h_S1x512 : 0 < S1x512.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x16384.size a
  hwx1_0 : ∀ i : grid1.Coords, EltTy.bits .f32 = 32 ∨ (Rect.block (s := S4096x16384) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x16384.size a
  hwx1_1 : ∀ i : grid1.Coords, EltTy.bits .bf16 = 32 ∨ (Rect.block (s := S4096x16384) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x16384.size a
  hwx2_1 : ∀ i : grid2.Coords, EltTy.bits .bf16 = 32 ∨ (Rect.block (s := S4096x16384) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x16384.size a
  hwx2_3 : ∀ i : grid2.Coords, EltTy.bits .f32 = 32 ∨ (Rect.block (s := S1x16384) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x16384.size a
  hwx2_4 : ∀ i : grid2.Coords, EltTy.bits .f32 = 32 ∨ (Rect.block (s := S8192x16384) S1024x1024.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S4096x512.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x16384 : Shape := ⟨2, ![4096, 16384]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S8192x16384 : Shape := ⟨2, ![8192, 16384]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x16384, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .i1⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S4096x16384, .f32⟩
  | .hbm, ⟨29, _⟩ => ⟨S_, .f32⟩
  | .hbm, ⟨30, _⟩ => ⟨S16384, .f32⟩
  | .hbm, ⟨31, _⟩ => ⟨S1x16384, .f32⟩
  | .hbm, ⟨32, _⟩ => ⟨S_, .f32⟩
  | .hbm, ⟨33, _⟩ => ⟨S1x16384, .f32⟩
  | .hbm, ⟨34, _⟩ => ⟨S1x16384, .i1⟩
  | .hbm, ⟨35, _⟩ => ⟨S_, .f32⟩
  | .hbm, ⟨36, _⟩ => ⟨S1x16384, .f32⟩
  | .hbm, ⟨37, _⟩ => ⟨S1x16384, .f32⟩
  | .hbm, ⟨38, _⟩ => ⟨S_, .f32⟩
  | .hbm, ⟨39, _⟩ => ⟨S1x16384, .f32⟩
  | .hbm, ⟨40, _⟩ => ⟨S1x16384, .f32⟩
  | .hbm, ⟨41, _⟩ => ⟨S4096x16384, .f32⟩
  | .hbm, ⟨42, _⟩ => ⟨S4096x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x16384, .f32⟩
  | .hbm, ⟨47, _⟩ => ⟨S4096x16384, .f32⟩
  | .hbm, ⟨48, _⟩ => ⟨S_, .f32⟩
  | .hbm, ⟨49, _⟩ => ⟨S4096x16384, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S4096x16384, .f32⟩
  | .hbm, ⟨54, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_cst_10 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x16384_S16384_d0 : S4096x16384.ReducesTo [0] S16384
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.BFrameL.lean ====
/-
  Region 0 of the kernel's program, at any float instance: the body's triple, the pipeline's proof data over the
  contents the region is entered from, and the body obligation at every grid point.
-/
import proofs.«165695_j60069412602522_2_alg».proof.Proof.Gen.Kernel.Launch
import proofs.«165695_j60069412602522_2_alg».proof.Proof.Gen.Kernel.Skeleton
import proofs.«165695_j60069412602522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the row-wise quantisation of the left operand, entered at the contents `V`

One input window (the operand's block) and two output windows (the quantised block, the scales); the body loads the
input block whole, computes both results from it, and stores each whole: every grid point is the same case. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, and the whole scale vector, as rectangles. -/
abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-- What the body leaves in the quantised block's buffer: one whole store of the quantised payload. -/
def out0_1 (x0 : Vec F S512x4096 .f32) : Vec F S512x4096 .bf16 :=
  View.canon [⟨r0_0, k0_pay2 (View.ld x0 r0_0)⟩]

theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-- What the body leaves in the scales' buffer: one whole store of the scale payload. -/
def out0_2 (x0 : Vec F S512x4096 .f32) : Vec F S512x1 .f32 :=
  View.canon [⟨r0_1, k0_pay1 (View.ld x0 r0_0)⟩]

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The body on whole staging memrefs, the input's at contents `x0` and the outputs' at anything, runs to the
    continuation with the input's as it was and each output's at its payload of `x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_lhs_kernel i arg1 harg1 arg2 harg2 arg3 harg3) K := by
  simp only [cc0__quant_lhs_kernel_eq_skeleton]; unfold cc0__quant_lhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of pipeline 0 on core `c`: the arrays as the region finds them; after the body at point `t` the
    input's buffer at its block and each output's at its payload of that block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BFrameR.lean ====
/-
  Region 1 of the kernel's program, at any float instance: the body's triple, the pipeline's proof data over the
  contents the region is entered from, and the body obligation at every grid point.
-/
import proofs.«165695_j60069412602522_2_alg».proof.Proof.Gen.Kernel.Launch
import proofs.«165695_j60069412602522_2_alg».proof.Proof.Gen.Kernel.Skeleton
import proofs.«165695_j60069412602522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column-wise quantisation of the right operand, entered at the contents `V`

One input window (the operand's block) and two output windows (the quantised block, the scales); the body loads the
input block whole, computes both results from it, and stores each whole: every grid point is the same case. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole block, and the whole scale vector, as rectangles. -/
abbrev r1_0 : Rect S4096x512 := Rect.unit (s := S4096x512) ![0, 0] S4096x512.size inb_S4096x512_S4096x512_0_0
abbrev r1_1 : Rect S1x512 := Rect.unit (s := S1x512) ![0, 0] S1x512.size inb_S1x512_S1x512_0_0

/-- What the body leaves in the quantised block's buffer: one whole store of the quantised payload. -/
def out1_1 (x0 : Vec F S4096x512 .f32) : Vec F S4096x512 .bf16 :=
  View.canon [⟨r1_0, k1_pay2 (View.ld x0 r1_0)⟩]

theorem cover1_1 (p0 : Vec F S4096x512 .bf16) (y : S4096x512.Idx) :
    ∃ pc ∈ ([⟨r1_0, p0⟩] : List (View.Piece (Elt F) S4096x512 .bf16)), y ∈ pc.1.set :=
  View.cover_of_tiled [⟨r1_0, p0⟩] S4096x512.size (by rfl) y

/-- What the body leaves in the scales' buffer: one whole store of the scale payload. -/
def out1_2 (x0 : Vec F S4096x512 .f32) : Vec F S1x512 .f32 :=
  View.canon [⟨r1_1, k1_pay1 (View.ld x0 r1_0)⟩]

theorem cover1_2 (p0 : Vec F S1x512 .f32) (y : S1x512.Idx) :
    ∃ pc ∈ ([⟨r1_1, p0⟩] : List (View.Piece (Elt F) S1x512 .f32)), y ∈ pc.1.set :=
  View.cover_of_tiled [⟨r1_1, p0⟩] S1x512.size (by rfl) y

set_option maxHeartbeats 1000000 in
/-- The body on whole staging memrefs, the input's at contents `x0` and the outputs' at anything, runs to the
    continuation with the input's as it was and each output's at its payload of `x0`. -/
theorem sound_kernel1 (c : Dev nD) (E : Set ℕ) (i : grid1.Coords) (arg1 : Memref sig .tc .vmem S4096x512 .f32) (harg1 : arg1.IsWhole) (arg2 : Memref sig .tc .vmem S4096x512 .bf16) (harg2 : arg2.IsWhole) (arg3 : Memref sig .tc .vmem S1x512 .f32) (harg3 : arg3.IsWhole)
    (x0 : Vec F S4096x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__quant_rhs_kernel i arg1 harg1 arg2 harg2 arg3 harg3) K := by
  simp only [cc1__quant_rhs_kernel_eq_skeleton]; unfold cc1__quant_rhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of pipeline 1 on core `c`: the arrays as the region finds them; after the body at point `t` the
    input's buffer at its block and each output's at its payload of that block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BFrameD0.lean ====
/-
  Region 2 of the kernel's program (the tiled product with its accumulator kept in a scratch buffer between grid
  points), at any float instance: what the three kinds of grid point share, and the body's run in each.

  The grid is (8, 16, 4); along the last axis the body zeroes the accumulator at the first point, adds one block product
  at every point, and writes the rescaled accumulator to the output block at the last point. So a point is of one of
  three kinds: first (zero, add), middle (add), last (add, write out). The output window is idle, and not written back,
  at every point but the last of each run of four.
-/
import proofs.«165695_j60069412602522_2_alg».proof.Proof.Gen.Kernel.Launch
import proofs.«165695_j60069412602522_2_alg».proof.Proof.Gen.Kernel.Skeleton
import proofs.«165695_j60069412602522_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first point along the contracted axis" (the first `scf.if`), from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point along the contracted axis" (the second `scf.if`). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point of a run the output window is idle and not written back; at it, it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows and kept between points. -/
abbrev scM2 : Memref sig .tc .vmem S1024x1024 .f32 := Memref.whole cc2_scratch0
abbrev VS2 : View sig .tc .vmem S1024x1024 .f32 := scM2.view

/-- The core's scoped buffers that no window of this pipeline stages, other than the accumulator: the staging buffers of the
    two quantisation pipelines, each whole at some contents. They pass through this region untouched. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The same buffers with the accumulator's resource `S` beside them, nested as the scoped rest lists them. -/
def withAcc (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S)

theorem withAcc_split (c : Dev nD) (S : sProp 𝕄) : withAcc (F := F) c S ⊢ iprop(Others (F := F) c ∗ S) := by
  unfold withAcc Others
  iintro ⟨A0, A1, A2, A3, A4, A5, A6, A7, A8, A9, A10, A11, HS⟩
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact HS

theorem withAcc_join (c : Dev nD) (S : sProp 𝕄) : iprop(Others (F := F) c ∗ S) ⊢ withAcc (F := F) c S := by
  unfold withAcc Others
  iintro ⟨⟨A0, A1, A2, A3, A4, A5, A6, A7, A8, A9, A10, A11⟩, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact HS

/-- The scoped rest with the accumulator as a memref owned at some contents. -/
theorem PhiA2_eq (c : Dev nD) :
    (Pipeline.ΦA spec2 c : sProp 𝕄)
      = iprop(withAcc c iprop(∃ d, owns (c : Thread nD τ) scM2 fullShare d) ∗ (∃ r, prngReg c r)) := by
  unfold Pipeline.ΦA withAcc; rw [scopedRest2_eq]; simp only [scM2, owns_whole]; try rfl

/-! ## The body's run at each kind of point

Each run is stated with the pieces its stores leave as a witness the symbolic execution finds: `L4` for the output
window's buffer, `LS` for the accumulator. -/

set_option maxHeartbeats 2000000 in
/-- At a FIRST point: the inputs at their contents, the output's buffer (idle here) handed back untouched, the
    accumulator at anything; it ends with the accumulator's pieces written. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    Σ' (L4 : List (View.Piece (Elt F) S1024x1024 .f32)), { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- At a MIDDLE point: as at a first one, with the accumulator at the contents `xs` the point before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- At a LAST point: the output's buffer at anything; it ends with the output's and the accumulator's pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.BFrameD1.lean ====
/-
  Region 2 of the kernel's program, at any float instance: what the output block's buffer and the accumulator hold
  after every grid point (a recursion along the grid: a first point starts afresh, a middle or last point continues from
  what the point before left in the accumulator), the pipeline's proof data, and the body obligation at every point.
-/
import proofs.«165695_j60069412602522_2_alg».proof.Proof.BFrameD0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The three runs at a grid point -/

noncomputable abbrev runA (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have := (hcond2_1 t).mp h; omega) (iblk2 V c 0 t) (iblk2 V c 1 t) (iblk2 V c 2 t) (iblk2 V c 3 t)
noncomputable abbrev runB (c : Dev nD) (t : Fin cfg2.N) (h0 : ¬t.val % 4 = 0) (h1 : ¬t.val % 4 = 3) (xs : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
noncomputable abbrev runC (c : Dev nD) (t : Fin cfg2.N) (h0 : ¬t.val % 4 = 0) (h1 : t.val % 4 = 3) (xs : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- At a first or middle point nothing is stored into the output's buffer: a placeholder nothing consults (the window is
    idle there and not written back). -/
def oA (c : Dev nD) (t : Fin cfg2.N) (h0 : t.val % 4 = 0) : Vec F S1024x1024 .f32 :=
  VO2_4.read (Elt F) (VO2_4.writes (Elt F) VO2_4.junk (runA V c t h0).1)
def oB (c : Dev nD) (t : Fin cfg2.N) (h0 : ¬t.val % 4 = 0) (h1 : ¬t.val % 4 = 3) (xs : Vec F S1024x1024 .f32) : Vec F S1024x1024 .f32 :=
  VO2_4.read (Elt F) (VO2_4.writes (Elt F) VO2_4.junk (runB V c t h0 h1 xs).1)
/-- At a last point the output's buffer holds the run's pieces, which cover it. -/
def oC (c : Dev nD) (t : Fin cfg2.N) (h0 : ¬t.val % 4 = 0) (h1 : t.val % 4 = 3) (xs : Vec F S1024x1024 .f32) : Vec F S1024x1024 .f32 :=
  VO2_4.read (Elt F) (VO2_4.writes (Elt F) VO2_4.junk (runC V c t h0 h1 xs).1)
theorem coverC (c : Dev nD) (t : Fin cfg2.N) (h0 : ¬t.val % 4 = 0) (h1 : t.val % 4 = 3) (xs : Vec F S1024x1024 .f32) (y : S1024x1024.Idx) :
    ∃ pc ∈ (runC V c t h0 h1 xs).1, y ∈ pc.1.set :=
  View.cover_of_tiledL (runC V c t h0 h1 xs).1 S1024x1024.size (by sl_kernel_rfl) y

/-- What each run leaves in the accumulator: its pieces, which cover it, read back. -/
def sA (c : Dev nD) (t : Fin cfg2.N) (h0 : t.val % 4 = 0) : Vec F S1024x1024 .f32 :=
  VS2.read (Elt F) (VS2.writes (Elt F) VS2.junk (runA V c t h0).2.1)
theorem scoverA (c : Dev nD) (t : Fin cfg2.N) (h0 : t.val % 4 = 0) (y : S1024x1024.Idx) :
    ∃ pc ∈ (runA V c t h0).2.1, y ∈ pc.1.set :=
  View.cover_of_tiledL (runA V c t h0).2.1 S1024x1024.size (by sl_kernel_rfl) y
def sB (c : Dev nD) (t : Fin cfg2.N) (h0 : ¬t.val % 4 = 0) (h1 : ¬t.val % 4 = 3) (xs : Vec F S1024x1024 .f32) : Vec F S1024x1024 .f32 :=
  VS2.read (Elt F) (VS2.writes (Elt F) VS2.junk (runB V c t h0 h1 xs).2.1)
theorem scoverB (c : Dev nD) (t : Fin cfg2.N) (h0 : ¬t.val % 4 = 0) (h1 : ¬t.val % 4 = 3) (xs : Vec F S1024x1024 .f32) (y : S1024x1024.Idx) :
    ∃ pc ∈ (runB V c t h0 h1 xs).2.1, y ∈ pc.1.set :=
  View.cover_of_tiledL (runB V c t h0 h1 xs).2.1 S1024x1024.size (by sl_kernel_rfl) y
def sC (c : Dev nD) (t : Fin cfg2.N) (h0 : ¬t.val % 4 = 0) (h1 : t.val % 4 = 3) (xs : Vec F S1024x1024 .f32) : Vec F S1024x1024 .f32 :=
  VS2.read (Elt F) (VS2.writes (Elt F) VS2.junk (runC V c t h0 h1 xs).2.1)
theorem scoverC (c : Dev nD) (t : Fin cfg2.N) (h0 : ¬t.val % 4 = 0) (h1 : t.val % 4 = 3) (xs : Vec F S1024x1024 .f32) (y : S1024x1024.Idx) :
    ∃ pc ∈ (runC V c t h0 h1 xs).2.1, y ∈ pc.1.set :=
  View.cover_of_tiledL (runC V c t h0 h1 xs).2.1 S1024x1024.size (by sl_kernel_rfl) y

/-! ## What the output's buffer and the accumulator hold after each point -/

/-- THE ACCUMULATION along the grid: after position `n`, the pair (output block's buffer, accumulator). -/
def outsAt2 (c : Dev nD) : (n : ℕ) → n < cfg2.N → Vec F S1024x1024 .f32 × Vec F S1024x1024 .f32
  | 0, hn => (oA V c ⟨0, hn⟩ (Nat.zero_mod 4), sA V c ⟨0, hn⟩ (Nat.zero_mod 4))
  | n + 1, hn =>
    if h0 : (n + 1) % 4 = 0 then
      (oA V c ⟨n + 1, hn⟩ h0, sA V c ⟨n + 1, hn⟩ h0)
    else
      if h1 : (n + 1) % 4 = 3 then
        (oC V c ⟨n + 1, hn⟩ h0 h1 (outsAt2 c n (Nat.lt_of_succ_lt hn)).2, sC V c ⟨n + 1, hn⟩ h0 h1 (outsAt2 c n (Nat.lt_of_succ_lt hn)).2)
      else
        (oB V c ⟨n + 1, hn⟩ h0 h1 (outsAt2 c n (Nat.lt_of_succ_lt hn)).2, sB V c ⟨n + 1, hn⟩ h0 h1 (outsAt2 c n (Nat.lt_of_succ_lt hn)).2)

theorem outsAt2_A (c : Dev nD) (t : Fin cfg2.N) (h0 : t.val % 4 = 0) :
    outsAt2 V c t.val t.isLt = (oA V c t h0, sA V c t h0) := by
  obtain ⟨n, hn⟩ := t
  cases n with
  | zero => exact rfl
  | succ n => exact (dif_pos h0)

theorem outsAt2_B (c : Dev nD) (t : Fin cfg2.N) (h0 : ¬t.val % 4 = 0) (h1 : ¬t.val % 4 = 3) :
    outsAt2 V c t.val t.isLt = (oB V c t h0 h1 (outsAt2 V c (t.val - 1) (Nat.lt_of_le_of_lt (Nat.sub_le _ _) t.isLt)).2, sB V c t h0 h1 (outsAt2 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (oC V c t h0 h1 (outsAt2 V c (t.val - 1) (Nat.lt_of_le_of_lt (Nat.sub_le _ _) t.isLt)).2, sC V c t h0 h1 (outsAt2 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h1).trans rfl)

/-- The region's invariant before position `n`: before the first point the scoped rest with the accumulator at anything;
    afterwards the accumulator at what the point before left in it, beside the generator register. -/
def PhiS2 (c : Dev nD) : (n : ℕ) → n ≤ cfg2.N → sProp 𝕄
  | 0, _ => Pipeline.ΦA spec2 c
  | n + 1, hn => iprop(withAcc c (owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(withAcc c (owns (c : Thread nD τ) scM2 fullShare ((outsAt2 V c n hn).2)) ∗ (∃ r, prngReg c r)) := rfl

theorem PhiS2_pos (c : Dev nD) (n : ℕ) (h : n ≤ cfg2.N) (hz : n ≠ 0) :
    PhiS2 V c n h = iprop(withAcc c (owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's position along the contracted axis says
    which run applies; the invariant hands the body the accumulator at what the point before left (at anything at the
    very first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  by_cases h0 : t.val % 4 = 0
  · have hn1 : ¬cond2_1 (grid2.coords t) := fun h => by have := (hcond2_1 t).mp h; omega
    rw [Dat.leavesExact_idle (dat2 V c) 4 t (idleAt2_4 t hn1) (noFlush2_4 t hn1)]
    rw [outsAt2_A V c t h0]
    unfold sA; (try dsimp only)
    by_cases hz : t.val = 0
    · rw [PhiS2_castSucc V c t, PhiS2_zero V c _ _ hz, PhiA2_eq]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runA V c t h0).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runA V c t h0).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold oC sC; (try dsimp only)
      rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · have hn1 : ¬cond2_1 (grid2.coords t) := fun h => h1 ((hcond2_1 t).mp h)
      rw [Dat.leavesExact_idle (dat2 V c) 4 t (idleAt2_4 t hn1) (noFlush2_4 t hn1)]
      rw [outsAt2_B V c t h0 h1]
      unfold sB; (try dsimp only)
      rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      iexists _; iexact H4

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 512 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨HW, Hg⟩
  ihave HW2 := (withAcc_split c _) $$ HW
  icases HW2 with ⟨Hoth, HS⟩
  isplitl [Hoth HS]
  · iapply (withAcc_join c _)
    isplitl [Hoth]; · iexact Hoth
    iexists _; iexact HS
  iexact Hg

end Region2

end Cert.Kernel.Hand

end
-- ==== Proof.BFrameRun.lean ====
/-
  The whole run of the kernel's program, at any float instance: @main is three kernel regions in a row. The contents
  of the core's buffers at each boundary are a fold from the launch memory (a region leaves its arrays at what its
  pipeline's write-backs make of them and every other buffer as it found it); each region is entered from the
  contents the one before left. The run ends with every unscoped buffer at the last boundary's contents: from that
  both the frame claim (the arguments end as launched) and the result's value are read.
-/
import proofs.«165695_j60069412602522_2_alg».proof.Proof.BFrameL
import proofs.«165695_j60069412602522_2_alg».proof.Proof.BFrameR
import proofs.«165695_j60069412602522_2_alg».proof.Proof.BFrameD1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs folded),
    every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched: no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- The result's array at the end is what the third pipeline's write-backs leave in its output window's array. -/
theorem W3_main_v2 (c : Dev nD) : W3 m ρ c (Proc.devRef .tc main_v2) = (dat2 (V2 m ρ) c).arrAt 4 cfg2.N :=
  W3_arr m ρ c 4

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every region: the core's generator register at some state and its dues, at
    nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

/-- The run with the result's array named: it ends at what the third pipeline's write-backs leave in its output
    window's array, the arguments as launched. -/
theorem run_value : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.Kernel.Hand

end
-- ==== Proof.IFrameL.lean ====
/-
  Region 0 of the kernel's program, at any float instance: the body's triple, the pipeline's proof data over the
  contents the region is entered from, and the body obligation at every grid point.
-/
import proofs.«165695_j60069412602522_2_alg».proof.Proof.Gen.KernelIdeal.Launch
import proofs.«165695_j60069412602522_2_alg».proof.Proof.Gen.KernelIdeal.Skeleton
import proofs.«165695_j60069412602522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the row-wise quantisation of the left operand, entered at the contents `V`

One input window (the operand's block) and two output windows (the quantised block, the scales); the body loads the
input block whole, computes both results from it, and stores each whole: every grid point is the same case. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, and the whole scale vector, as rectangles. -/
abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-- What the body leaves in the quantised block's buffer: one whole store of the quantised payload. -/
def out0_1 (x0 : Vec F S512x4096 .f32) : Vec F S512x4096 .bf16 :=
  View.canon [⟨r0_0, k0_pay2 (View.ld x0 r0_0)⟩]

theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-- What the body leaves in the scales' buffer: one whole store of the scale payload. -/
def out0_2 (x0 : Vec F S512x4096 .f32) : Vec F S512x1 .f32 :=
  View.canon [⟨r0_1, k0_pay1 (View.ld x0 r0_0)⟩]

theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The body on whole staging memrefs, the input's at contents `x0` and the outputs' at anything, runs to the
    continuation with the input's as it was and each output's at its payload of `x0`. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_lhs_kernel i arg1 harg1 arg2 harg2 arg3 harg3) K := by
  simp only [cc0__quant_lhs_kernel_eq_skeleton]; unfold cc0__quant_lhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of pipeline 0 on core `c`: the arrays as the region finds them; after the body at point `t` the
    input's buffer at its block and each output's at its payload of that block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IFrameR.lean ====
/-
  Region 1 of the kernel's program, at any float instance: the body's triple, the pipeline's proof data over the
  contents the region is entered from, and the body obligation at every grid point.
-/
import proofs.«165695_j60069412602522_2_alg».proof.Proof.Gen.KernelIdeal.Launch
import proofs.«165695_j60069412602522_2_alg».proof.Proof.Gen.KernelIdeal.Skeleton
import proofs.«165695_j60069412602522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column-wise quantisation of the right operand, entered at the contents `V`

One input window (the operand's block) and two output windows (the quantised block, the scales); the body loads the
input block whole, computes both results from it, and stores each whole: every grid point is the same case. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole block, and the whole scale vector, as rectangles. -/
abbrev r1_0 : Rect S4096x512 := Rect.unit (s := S4096x512) ![0, 0] S4096x512.size inb_S4096x512_S4096x512_0_0
abbrev r1_1 : Rect S1x512 := Rect.unit (s := S1x512) ![0, 0] S1x512.size inb_S1x512_S1x512_0_0

/-- What the body leaves in the quantised block's buffer: one whole store of the quantised payload. -/
def out1_1 (x0 : Vec F S4096x512 .f32) : Vec F S4096x512 .bf16 :=
  View.canon [⟨r1_0, k1_pay2 (View.ld x0 r1_0)⟩]

theorem cover1_1 (p0 : Vec F S4096x512 .bf16) (y : S4096x512.Idx) :
    ∃ pc ∈ ([⟨r1_0, p0⟩] : List (View.Piece (Elt F) S4096x512 .bf16)), y ∈ pc.1.set :=
  View.cover_of_tiled [⟨r1_0, p0⟩] S4096x512.size (by rfl) y

/-- What the body leaves in the scales' buffer: one whole store of the scale payload. -/
def out1_2 (x0 : Vec F S4096x512 .f32) : Vec F S1x512 .f32 :=
  View.canon [⟨r1_1, k1_pay1 (View.ld x0 r1_0)⟩]

theorem cover1_2 (p0 : Vec F S1x512 .f32) (y : S1x512.Idx) :
    ∃ pc ∈ ([⟨r1_1, p0⟩] : List (View.Piece (Elt F) S1x512 .f32)), y ∈ pc.1.set :=
  View.cover_of_tiled [⟨r1_1, p0⟩] S1x512.size (by rfl) y

set_option maxHeartbeats 1000000 in
/-- The body on whole staging memrefs, the input's at contents `x0` and the outputs' at anything, runs to the
    continuation with the input's as it was and each output's at its payload of `x0`. -/
theorem sound_kernel1 (c : Dev nD) (E : Set ℕ) (i : grid1.Coords) (arg1 : Memref sig .tc .vmem S4096x512 .f32) (harg1 : arg1.IsWhole) (arg2 : Memref sig .tc .vmem S4096x512 .bf16) (harg2 : arg2.IsWhole) (arg3 : Memref sig .tc .vmem S1x512 .f32) (harg3 : arg3.IsWhole)
    (x0 : Vec F S4096x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__quant_rhs_kernel i arg1 harg1 arg2 harg2 arg3 harg3) K := by
  simp only [cc1__quant_rhs_kernel_eq_skeleton]; unfold cc1__quant_rhs_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of pipeline 1 on core `c`: the arrays as the region finds them; after the body at point `t` the
    input's buffer at its block and each output's at its payload of that block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.IFrameD0.lean ====
/-
  Region 2 of the kernel's program (the tiled product with its accumulator kept in a scratch buffer between grid
  points), at any float instance: what the three kinds of grid point share, and the body's run in each.

  The grid is (8, 16, 4); along the last axis the body zeroes the accumulator at the first point, adds one block product
  at every point, and writes the rescaled accumulator to the output block at the last point. So a point is of one of
  three kinds: first (zero, add), middle (add), last (add, write out). The output window is idle, and not written back,
  at every point but the last of each run of four.
-/
import proofs.«165695_j60069412602522_2_alg».proof.Proof.Gen.KernelIdeal.Launch
import proofs.«165695_j60069412602522_2_alg».proof.Proof.Gen.KernelIdeal.Skeleton
import proofs.«165695_j60069412602522_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first point along the contracted axis" (the first `scf.if`), from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last point along the contracted axis" (the second `scf.if`). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point of a run the output window is idle and not written back; at it, it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S1024x1024 .f32 := (Memref.whole cc2_stg4_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows and kept between points. -/
abbrev scM2 : Memref sig .tc .vmem S1024x1024 .f32 := Memref.whole cc2_scratch0
abbrev VS2 : View sig .tc .vmem S1024x1024 .f32 := scM2.view

/-- The core's scoped buffers that no window of this pipeline stages, other than the accumulator: the staging buffers of the
    two quantisation pipelines, each whole at some contents. They pass through this region untouched. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The same buffers with the accumulator's resource `S` beside them, nested as the scoped rest lists them. -/
def withAcc (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S)

theorem withAcc_split (c : Dev nD) (S : sProp 𝕄) : withAcc (F := F) c S ⊢ iprop(Others (F := F) c ∗ S) := by
  unfold withAcc Others
  iintro ⟨A0, A1, A2, A3, A4, A5, A6, A7, A8, A9, A10, A11, HS⟩
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact HS

theorem withAcc_join (c : Dev nD) (S : sProp 𝕄) : iprop(Others (F := F) c ∗ S) ⊢ withAcc (F := F) c S := by
  unfold withAcc Others
  iintro ⟨⟨A0, A1, A2, A3, A4, A5, A6, A7, A8, A9, A10, A11⟩, HS⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact HS

/-- The scoped rest with the accumulator as a memref owned at some contents. -/
theorem PhiA2_eq (c : Dev nD) :
    (Pipeline.ΦA spec2 c : sProp 𝕄)
      = iprop(withAcc c iprop(∃ d, owns (c : Thread nD τ) scM2 fullShare d) ∗ (∃ r, prngReg c r)) := by
  unfold Pipeline.ΦA withAcc; rw [scopedRest2_eq]; simp only [scM2, owns_whole]; try rfl

/-! ## The body's run at each kind of point

Each run is stated with the pieces its stores leave as a witness the symbolic execution finds: `L4` for the output
window's buffer, `LS` for the accumulator. -/

set_option maxHeartbeats 2000000 in
/-- At a FIRST point: the inputs at their contents, the output's buffer (idle here) handed back untouched, the
    accumulator at anything; it ends with the accumulator's pieces written. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x1024 .bf16) (x1 : Vec F S1024x1024 .bf16) (x2 : Vec F S1024x1 .f32) (x3 : Vec F S1x1024 .f32) :
    Σ' (L4 : List (View.Piece (Elt F) S1024x1024 .f32)), { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- At a MIDDLE point: as at a first one, with the accumulator at the contents `xs` the point before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬cond2_1 i)
    (x0 : Vec F S1024x1024 .bf16) (x1 : Vec F S1024x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨[], ?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- At a LAST point: the output's buffer at anything; it ends with the output's and the accumulator's pieces written. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x1024 .bf16) (x1 : Vec F S1024x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__matmul_kernel i arg3 harg3 arg4 harg4 arg5 harg5 arg6 harg6 arg7 harg7 arg8 harg8) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.IFrameD1.lean ====
/-
  Region 2 of the kernel's program, at any float instance: what the output block's buffer and the accumulator hold
  after every grid point (a recursion along the grid: a first point starts afresh, a middle or last point continues from
  what the point before left in the accumulator), the pipeline's proof data, and the body obligation at every point.
-/
import proofs.«165695_j60069412602522_2_alg».proof.Proof.IFrameD0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The three runs at a grid point -/

noncomputable abbrev runA (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have := (hcond2_1 t).mp h; omega) (iblk2 V c 0 t) (iblk2 V c 1 t) (iblk2 V c 2 t) (iblk2 V c 3 t)
noncomputable abbrev runB (c : Dev nD) (t : Fin cfg2.N) (h0 : ¬t.val % 4 = 0) (h1 : ¬t.val % 4 = 3) (xs : Vec F S1024x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
noncomputable abbrev runC (c : Dev nD) (t : Fin cfg2.N) (h0 : ¬t.val % 4 = 0) (h1 : t.val % 4 = 3) (xs : Vec F S1024x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- At a first or middle point nothing is stored into the output's buffer: a placeholder nothing consults (the window is
    idle there and not written back). -/
def oA (c : Dev nD) (t : Fin cfg2.N) (h0 : t.val % 4 = 0) : Vec F S1024x1024 .f32 :=
  VO2_4.read (Elt F) (VO2_4.writes (Elt F) VO2_4.junk (runA V c t h0).1)
def oB (c : Dev nD) (t : Fin cfg2.N) (h0 : ¬t.val % 4 = 0) (h1 : ¬t.val % 4 = 3) (xs : Vec F S1024x1024 .f32) : Vec F S1024x1024 .f32 :=
  VO2_4.read (Elt F) (VO2_4.writes (Elt F) VO2_4.junk (runB V c t h0 h1 xs).1)
/-- At a last point the output's buffer holds the run's pieces, which cover it. -/
def oC (c : Dev nD) (t : Fin cfg2.N) (h0 : ¬t.val % 4 = 0) (h1 : t.val % 4 = 3) (xs : Vec F S1024x1024 .f32) : Vec F S1024x1024 .f32 :=
  VO2_4.read (Elt F) (VO2_4.writes (Elt F) VO2_4.junk (runC V c t h0 h1 xs).1)
theorem coverC (c : Dev nD) (t : Fin cfg2.N) (h0 : ¬t.val % 4 = 0) (h1 : t.val % 4 = 3) (xs : Vec F S1024x1024 .f32) (y : S1024x1024.Idx) :
    ∃ pc ∈ (runC V c t h0 h1 xs).1, y ∈ pc.1.set :=
  View.cover_of_tiledL (runC V c t h0 h1 xs).1 S1024x1024.size (by sl_kernel_rfl) y

/-- What each run leaves in the accumulator: its pieces, which cover it, read back. -/
def sA (c : Dev nD) (t : Fin cfg2.N) (h0 : t.val % 4 = 0) : Vec F S1024x1024 .f32 :=
  VS2.read (Elt F) (VS2.writes (Elt F) VS2.junk (runA V c t h0).2.1)
theorem scoverA (c : Dev nD) (t : Fin cfg2.N) (h0 : t.val % 4 = 0) (y : S1024x1024.Idx) :
    ∃ pc ∈ (runA V c t h0).2.1, y ∈ pc.1.set :=
  View.cover_of_tiledL (runA V c t h0).2.1 S1024x1024.size (by sl_kernel_rfl) y
def sB (c : Dev nD) (t : Fin cfg2.N) (h0 : ¬t.val % 4 = 0) (h1 : ¬t.val % 4 = 3) (xs : Vec F S1024x1024 .f32) : Vec F S1024x1024 .f32 :=
  VS2.read (Elt F) (VS2.writes (Elt F) VS2.junk (runB V c t h0 h1 xs).2.1)
theorem scoverB (c : Dev nD) (t : Fin cfg2.N) (h0 : ¬t.val % 4 = 0) (h1 : ¬t.val % 4 = 3) (xs : Vec F S1024x1024 .f32) (y : S1024x1024.Idx) :
    ∃ pc ∈ (runB V c t h0 h1 xs).2.1, y ∈ pc.1.set :=
  View.cover_of_tiledL (runB V c t h0 h1 xs).2.1 S1024x1024.size (by sl_kernel_rfl) y
def sC (c : Dev nD) (t : Fin cfg2.N) (h0 : ¬t.val % 4 = 0) (h1 : t.val % 4 = 3) (xs : Vec F S1024x1024 .f32) : Vec F S1024x1024 .f32 :=
  VS2.read (Elt F) (VS2.writes (Elt F) VS2.junk (runC V c t h0 h1 xs).2.1)
theorem scoverC (c : Dev nD) (t : Fin cfg2.N) (h0 : ¬t.val % 4 = 0) (h1 : t.val % 4 = 3) (xs : Vec F S1024x1024 .f32) (y : S1024x1024.Idx) :
    ∃ pc ∈ (runC V c t h0 h1 xs).2.1, y ∈ pc.1.set :=
  View.cover_of_tiledL (runC V c t h0 h1 xs).2.1 S1024x1024.size (by sl_kernel_rfl) y

/-! ## What the output's buffer and the accumulator hold after each point -/

/-- THE ACCUMULATION along the grid: after position `n`, the pair (output block's buffer, accumulator). -/
def outsAt2 (c : Dev nD) : (n : ℕ) → n < cfg2.N → Vec F S1024x1024 .f32 × Vec F S1024x1024 .f32
  | 0, hn => (oA V c ⟨0, hn⟩ (Nat.zero_mod 4), sA V c ⟨0, hn⟩ (Nat.zero_mod 4))
  | n + 1, hn =>
    if h0 : (n + 1) % 4 = 0 then
      (oA V c ⟨n + 1, hn⟩ h0, sA V c ⟨n + 1, hn⟩ h0)
    else
      if h1 : (n + 1) % 4 = 3 then
        (oC V c ⟨n + 1, hn⟩ h0 h1 (outsAt2 c n (Nat.lt_of_succ_lt hn)).2, sC V c ⟨n + 1, hn⟩ h0 h1 (outsAt2 c n (Nat.lt_of_succ_lt hn)).2)
      else
        (oB V c ⟨n + 1, hn⟩ h0 h1 (outsAt2 c n (Nat.lt_of_succ_lt hn)).2, sB V c ⟨n + 1, hn⟩ h0 h1 (outsAt2 c n (Nat.lt_of_succ_lt hn)).2)

theorem outsAt2_A (c : Dev nD) (t : Fin cfg2.N) (h0 : t.val % 4 = 0) :
    outsAt2 V c t.val t.isLt = (oA V c t h0, sA V c t h0) := by
  obtain ⟨n, hn⟩ := t
  cases n with
  | zero => exact rfl
  | succ n => exact (dif_pos h0)

theorem outsAt2_B (c : Dev nD) (t : Fin cfg2.N) (h0 : ¬t.val % 4 = 0) (h1 : ¬t.val % 4 = 3) :
    outsAt2 V c t.val t.isLt = (oB V c t h0 h1 (outsAt2 V c (t.val - 1) (Nat.lt_of_le_of_lt (Nat.sub_le _ _) t.isLt)).2, sB V c t h0 h1 (outsAt2 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (oC V c t h0 h1 (outsAt2 V c (t.val - 1) (Nat.lt_of_le_of_lt (Nat.sub_le _ _) t.isLt)).2, sC V c t h0 h1 (outsAt2 V c (t.val - 1) (Nat.lt_of_le_of_lt (Nat.sub_le _ _) t.isLt)).2) := by
  obtain ⟨n, hn⟩ := t
  cases n with
  | zero => exact absurd (Nat.zero_mod 4) h0
  | succ n => exact (dif_neg h0).trans ((dif_pos h1).trans rfl)

/-- The region's invariant before position `n`: before the first point the scoped rest with the accumulator at anything;
    afterwards the accumulator at what the point before left in it, beside the generator register. -/
def PhiS2 (c : Dev nD) : (n : ℕ) → n ≤ cfg2.N → sProp 𝕄
  | 0, _ => Pipeline.ΦA spec2 c
  | n + 1, hn => iprop(withAcc c (owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(withAcc c (owns (c : Thread nD τ) scM2 fullShare ((outsAt2 V c n hn).2)) ∗ (∃ r, prngReg c r)) := rfl

theorem PhiS2_pos (c : Dev nD) (n : ℕ) (h : n ≤ cfg2.N) (hz : n ≠ 0) :
    PhiS2 V c n h = iprop(withAcc c (owns (c : Thread nD τ) scM2 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the point's position along the contracted axis says
    which run applies; the invariant hands the body the accumulator at what the point before left (at anything at the
    very first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  by_cases h0 : t.val % 4 = 0
  · have hn1 : ¬cond2_1 (grid2.coords t) := fun h => by have := (hcond2_1 t).mp h; omega
    rw [Dat.leavesExact_idle (dat2 V c) 4 t (idleAt2_4 t hn1) (noFlush2_4 t hn1)]
    rw [outsAt2_A V c t h0]
    unfold sA; (try dsimp only)
    by_cases hz : t.val = 0
    · rw [PhiS2_castSucc V c t, PhiS2_zero V c _ _ hz, PhiA2_eq]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runA V c t h0).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runA V c t h0).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverA V c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold oC sC; (try dsimp only)
      rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · have hn1 : ¬cond2_1 (grid2.coords t) := fun h => h1 ((hcond2_1 t).mp h)
      rw [Dat.leavesExact_idle (dat2 V c) 4 t (idleAt2_4 t hn1) (noFlush2_4 t hn1)]
      rw [outsAt2_B V c t h0 h1]
      unfold sB; (try dsimp only)
      rw [PhiS2_castSucc V c t, PhiS2_pos V c _ _ hz]
      iintro ⟨⟨HW, Hg⟩, Ho, ⟨%d0, H0⟩, ⟨%d1, H1⟩, ⟨%d2, H2⟩, ⟨%d3, H3⟩, ⟨%d4, H4⟩⟩
      ihave HW2 := (withAcc_split c _) $$ HW
      icases HW2 with ⟨Hoth, HS⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · iapply (withAcc_join c _)
          isplitl [Hoth]; · iexact Hoth
          unfold owns; iexists _; isplitr
          swap; · iexact HS
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      iexists _; iexact H4

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 512 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨HW, Hg⟩
  ihave HW2 := (withAcc_split c _) $$ HW
  icases HW2 with ⟨Hoth, HS⟩
  isplitl [Hoth HS]
  · iapply (withAcc_join c _)
    isplitl [Hoth]; · iexact Hoth
    iexists _; iexact HS
  iexact Hg

end Region2

end Cert.KernelIdeal.Hand

end
-- ==== Proof.IFrameRun.lean ====
/-
  The whole run of the kernel's program, at any float instance: @main is three kernel regions in a row. The contents
  of the core's buffers at each boundary are a fold from the launch memory (a region leaves its arrays at what its
  pipeline's write-backs make of them and every other buffer as it found it); each region is entered from the
  contents the one before left. The run ends with every unscoped buffer at the last boundary's contents: from that
  both the frame claim (the arguments end as launched) and the result's value are read.
-/
import proofs.«165695_j60069412602522_2_alg».proof.Proof.IFrameL
import proofs.«165695_j60069412602522_2_alg».proof.Proof.IFrameR
import proofs.«165695_j60069412602522_2_alg».proof.Proof.IFrameD1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs folded),
    every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The arguments end as launched: no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- The result's array at the end is what the third pipeline's write-backs leave in its output window's array. -/
theorem W3_main_v2 (c : Dev nD) : W3 m ρ c (Proc.devRef .tc main_v2) = (dat2 (V2 m ρ) c).arrAt 4 cfg2.N :=
  W3_arr m ρ c 4

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every region: the core's generator register at some state and its dues, at
    nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

/-- The run with the result's array named: it ends at what the third pipeline's write-backs leave in its output
    window's array, the arguments as launched. -/
theorem run_value : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.Spec.lean ====
/-
  The mathematics both programs compute, stated once on the extended reals over the literal shapes.

  Symmetric 8-bit quantisation of a matrix along one axis: the scale of a row (of the left operand) or of a column
  (of the right operand) is `amax / 127` when the largest absolute value `amax` of that row or column is positive
  and `1` otherwise; an entry's quantised value is its quotient by the scale, clamped to `[-127, 127]` and rounded
  to the nearest integer, ties to even.  The product of the two de-quantised matrices is then
  `∑ t, (qL i t · sL i) · (qR t j · sR j)` (the reference's arrangement), or the integer-valued product
  `∑ t, qL i t · qR t j`, accumulated over four blocks of 1024 of the contracted axis from zero, rescaled afterwards by
  `sL i` and by `sR j` (the kernel's arrangement).
-/
import Idealize.ShloMosaic.Lib.ValueIdx
import Idealize.ShloMosaic.PureOps.Ideal.Laws

noncomputable section

namespace Cert.QuantDot

open Idealize.ShloMosaic Idealize.ShloMosaic.ValueIdx

/-- The four float literals of both programs, as the extended reals their words denote. -/
abbrev c127 : EReal := Ideal.ofBits .f32 0x42FE0000#32
abbrev cm127 : EReal := Ideal.ofBits .f32 0xC2FE0000#32
abbrev cOne : EReal := Ideal.ofBits .f32 0x3F800000#32
abbrev cZero : EReal := Ideal.ofBits .f32 0x00000000#32

/-- The scale of a row or column from its largest absolute value. -/
def scaleOf (amax : EReal) : EReal := Scalar.select (Ideal.cmp .ogt amax cZero) (Ideal.div amax c127) cOne

/-- An entry quantised at a scale: the quotient clamped to `[-127, 127]` and rounded to nearest, ties to even. -/
def quant (x s : EReal) : EReal := Ideal.liftRound Ideal.roundHalfEven (min c127 (max cm127 (Ideal.div x s)))

/-- The largest absolute value of a finite family, as the fold of `max` from `−∞`. -/
def amaxOf {n : ℕ} (f : Fin n → EReal) : EReal := (Finset.univ : Finset (Fin n)).fold max ⊥ (fun k => max (f k) (-(f k)))

abbrev ShL : Shape := ⟨2, ![8192, 4096]⟩
abbrev ShR : Shape := ⟨2, ![4096, 16384]⟩
abbrev ShO : Shape := ⟨2, ![8192, 16384]⟩

variable (lhs : ShL.Idx → EReal) (rhs : ShR.Idx → EReal)

/-- Row `i`'s scale of the left operand, column `j`'s scale of the right operand. -/
def sL (i : Fin 8192) : EReal := scaleOf (amaxOf fun k : Fin 4096 => lhs (ix2 i k))
def sR (j : Fin 16384) : EReal := scaleOf (amaxOf fun k : Fin 4096 => rhs (ix2 k j))

/-- The quantised entries. -/
def qL (i : Fin 8192) (k : Fin 4096) : EReal := quant (lhs (ix2 i k)) (sL lhs i)
def qR (k : Fin 4096) (j : Fin 16384) : EReal := quant (rhs (ix2 k j)) (sR rhs j)

/-- The reference's arrangement: the product of the de-quantised matrices. -/
def refOut (i : Fin 8192) (j : Fin 16384) : EReal :=
  ∑ t : Fin 4096, (qL lhs i t * sL lhs i) * (qR rhs t j * sR rhs j)

/-- Block `b` of the contracted axis, position `u` in it. -/
def kpos (b : Fin 4) (u : Fin 1024) : Fin 4096 := ⟨b.val * 1024 + u.val, by omega⟩

/-- One block's share of the integer-valued product. -/
def blockDot (b : Fin 4) (i : Fin 8192) (j : Fin 16384) : EReal :=
  ∑ u : Fin 1024, qL lhs i (kpos b u) * qR rhs (kpos b u) j

/-- The kernel's arrangement: four block products added one after the other from zero, then the two rescalings. -/
def kerOut (i : Fin 8192) (j : Fin 16384) : EReal :=
  ((((0 + blockDot lhs rhs 0 i j) + blockDot lhs rhs 1 i j) + blockDot lhs rhs 2 i j) + blockDot lhs rhs 3 i j)
    * sL lhs i * sR rhs j

end Cert.QuantDot

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.PayForms.lean ====
/-
  The two scalar formulas of the quantisation kernels, read at an index of the vector expressions that compute them.

  Over any shape: the vector expression "select (A > 0) (A / 127) 1", with the three literals broadcast, is at index
  `i` the scale `scaleOf (A i)`; and the vector expression "round-to-even (min 127 (max (−127) (X / S)))", followed by
  a change of float format (the identity on the extended reals), is at index `i` the quantised value
  `quant (X i) (S i)`.  Both are read off operation by operation; each literal stays the word that denotes it, the same word on both sides.
-/
import proofs.«165695_j60069412602522_2_alg».proof.Proof.Spec

noncomputable section

namespace Cert.KernelIdeal.PayVal

open Cert.QuantDot Idealize.ShloMosaic Idealize.ShloMosaic.ValueIdx

variable {s : Shape}

/-- The scale expression at an index. -/
theorem scale_form (A : FVec Ideal s .f32) (i : s.Idx) :
    select (cmpf .ogt A (broadcast s (Scalar.ofBits .f32 0x00000000#32)))
        (divf A (broadcast s (Scalar.ofBits .f32 0x42FE0000#32)))
        (broadcast s (Scalar.ofBits (F := Ideal) .f32 0x3F800000#32)) i
      = scaleOf (A i) := by
  simp only [select_apply, cmpf_apply, divf_apply, broadcast_apply, Ideal.cmpf_def, Ideal.ofBits_def, scaleOf]

/-- The quantisation expression at an index. -/
theorem quant_form (X S : FVec Ideal s .f32) (h : FTy.bits .bf16 < FTy.bits .f32) (i : s.Idx) :
    truncf .bf16 (roundeven (minimumf (broadcast s (Scalar.ofBits .f32 0x42FE0000#32))
        (maximumf (broadcast s (Scalar.ofBits (F := Ideal) .f32 0xC2FE0000#32)) (divf X S)))) h i
      = quant (X i) (S i) := by
  simp only [truncf_apply, roundeven, minimumf_apply, maximumf_apply, divf_apply, broadcast_apply,
    Ideal.roundeven_def, Ideal.ofBits_def, quant]

end Cert.KernelIdeal.PayVal

end
-- ==== Proof.PayLhs.lean ====
/-
  The left operand's quantisation kernel, read entry by entry on the extended reals.

  On a block of 512 rows the kernel takes each row's largest absolute value (the maximum of `max x (−x)` along the
  row, from `−∞`), turns it into the row's scale (`amax / 127` when `amax > 0`, else `1`), and stores, for every
  entry, its quotient by the row's scale clamped to `[−127, 127]` and rounded to nearest, ties to even.  The change of
  float format at the end is the identity on the extended reals.  So the stored scale at row `p` is `scaleOf` of the
  row's `amaxOf`, and the stored entry `(p, q)` is `quant` of the input entry at that scale.
-/
import proofs.«165695_j60069412602522_2_alg».proof.Proof.Spec
import proofs.«165695_j60069412602522_2_alg».proof.Proof.Gen.KernelIdeal.Skeleton
import proofs.«165695_j60069412602522_2_alg».proof.Proof.LibRowOps
import proofs.«165695_j60069412602522_2_alg».proof.Proof.LibKeepdims
import proofs.«165695_j60069412602522_2_alg».proof.Proof.PayForms

noncomputable section

namespace Cert.KernelIdeal.PayVal

open Cert.KernelIdeal Cert.KernelIdeal.Gen Cert.QuantDot Idealize.ShloMosaic Idealize.ShloMosaic.ValueIdx

/-- The row maximum of the absolute values, kept as a column: at `(p, u)` it is the largest absolute value of row `p`. -/
theorem lhs_amax (x0 : Vec Ideal S512x4096 .f32) (p : Fin 512) (u : Fin 1) :
    shapeCast S512x1 (multiReduction .maximumf [1] S512 (absf (F := Ideal) x0) 0xFF800000#32
        reduces_S512x4096_S512 (.inl rfl) rfl) shapeCasts_S512_S512x1 (ix2 p u)
      = amaxOf fun k : Fin 4096 => x0 (ix2 p k) :=
  (Keepdims.shapeCast_a_a1_apply _ _ p u).trans (RowOps.rowMax_apply _ _ rfl p)

/-- The scale the kernel stores for row `p`. -/
theorem pay0_scale (x0 : Vec Ideal S512x4096 .f32) (p : Fin 512) (u : Fin 1) :
    k0_pay1 (F := Ideal) x0 (ix2 p u) = scaleOf (amaxOf fun k : Fin 4096 => x0 (ix2 p k)) := by
  unfold k0_pay1
  exact (scale_form _ _).trans (congrArg scaleOf (lhs_amax x0 p u))

/-- The quantised entry the kernel stores at `(p, q)`. -/
theorem pay0_q (x0 : Vec Ideal S512x4096 .f32) (p : Fin 512) (q : Fin 4096) :
    k0_pay2 (F := Ideal) x0 (ix2 p q)
      = quant (x0 (ix2 p q)) (scaleOf (amaxOf fun k : Fin 4096 => x0 (ix2 p k))) := by
  have hs : broadcastTo S512x4096 (k0_pay1 (F := Ideal) x0) broadcasts_S512x1_S512x4096 (ix2 p q)
      = scaleOf (amaxOf fun k : Fin 4096 => x0 (ix2 p k)) :=
    (Keepdims.broadcastTo_a1_ab_apply _ _ p q).trans (pay0_scale x0 p 0)
  unfold k0_pay2
  exact (quant_form _ _ _ _).trans (congrArg (quant (x0 (ix2 p q))) hs)

end Cert.KernelIdeal.PayVal

end
-- ==== Proof.KerValueL.lean ====
/-
  The left operand's quantisation region, read as whole arrays on the extended reals.

  The region runs over 16 grid points; point `t` loads rows `512 t … 512 t + 511` of the operand, and writes back the
  same rows of the quantised matrix and of the column of scales.  A row's scale and quantised entries depend on that row
  of the operand only, and a block holds whole rows; so what point `t` writes back is block `t` of one function of the
  whole operand — entry `(r, k)` of the quantised matrix is `qL` at `(r, k)`, entry `(r, 0)` of the scales is `sL` at
  `r` — and the 16 blocks cover every row.
-/
import proofs.«165695_j60069412602522_2_alg».proof.Proof.IFrameL
import proofs.«165695_j60069412602522_2_alg».proof.Proof.PayLhs
import Idealize.ShloMosaic.Lib.Pipeline.Value
import Idealize.ShloMosaic.Lib.ValueIdx

noncomputable section

namespace Cert.KernelIdeal.Hand

open Cert.KernelIdeal Cert.KernelIdeal.Gen Cert.KernelIdeal.PayVal Cert.QuantDot
open Idealize.ShloMosaic Idealize.ShloMosaic.TcCoe Idealize.ShloMosaic.ValueIdx Idealize.SL.Sem
open Idealize.ShloMosaic.Pipeline (Dat)

/-! ## One block's payloads as functions of the whole operand -/

/-- If row `p` of a block is row `r` of the operand, the block's quantised entry `(p, q)` is the operand's `(r, q)`. -/
theorem blk0_q (x0 : Vec Ideal S512x4096 .f32) (a0 : S8192x4096.Idx → EReal) (p : Fin 512) (q : Fin 4096) (r : Fin 8192)
    (hx : ∀ k : Fin 4096, x0 (ix2 p k) = a0 (ix2 r k)) :
    k0_pay2 (F := Ideal) x0 (ix2 p q) = qL a0 r q := by
  rw [pay0_q]
  unfold qL sL
  rw [hx q, show (fun k : Fin 4096 => x0 (ix2 p k)) = fun k => a0 (ix2 r k) from funext hx]

/-- If row `p` of a block is row `r` of the operand, the block's scale at row `p` is the operand's at row `r`. -/
theorem blk0_s (x0 : Vec Ideal S512x4096 .f32) (a0 : S8192x4096.Idx → EReal) (p : Fin 512) (u : Fin 1) (r : Fin 8192)
    (hx : ∀ k : Fin 4096, x0 (ix2 p k) = a0 (ix2 r k)) :
    k0_pay1 (F := Ideal) x0 (ix2 p u) = sL a0 r := by
  rw [pay0_scale]
  unfold sL
  rw [show (fun k : Fin 4096 => x0 (ix2 p k)) = fun k => a0 (ix2 r k) from funext hx]

/-! ## The region's arrays -/

section Region0
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: at point `t` every window is at block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the input block at point `t` is row `512 t + p` of the operand. -/
theorem iblk0_row (c : Dev nD) (t : Fin cfg0.N) (p : Fin 512) (k : Fin 4096) (r : Fin 8192)
    (hr : r.val = t.val * 512 + p.val) :
    iblk0 V c 0 t (ix2 p k) = V c main_arg0 (ix2 r k) := by
  obtain ⟨e0, e1, -, -, -, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- WHAT POINT `t` WRITES BACK to the quantised matrix is block `t` of `qL` of the operand. -/
theorem flushed0_1_eq (c : Dev nD) (t : Fin cfg0.N) :
    (dat0 V c).flushed 1 t
      = ((cfg0.win 1).blk t).view.read (Elt Ideal) (fun i : S8192x4096.Idx => qL (V c main_arg0) (i 0) (i 1)) := by
  show (cfg0.win 1).cut (grid0.coords t) ((dat0 V c).after 1 t) = _
  rw [after0_1]
  unfold out0_1
  rw [View.canon_unit_zero hz0]
  simp only [View.ld_unit_zero (S := S512x4096) hz0]
  obtain ⟨-, -, e2, e3, -, -⟩ := idx_facts0 t
  funext j
  have hN : t.val < 16 := Nat.lt_of_lt_of_eq t.isLt N_0
  have hj0 : (j 0).val < 512 := (j 0).isLt
  have hj1 : (j 1).val < 4096 := (j 1).isLt
  have hr : t.val * 512 + (j 0).val < 8192 := by omega
  show k0_pay2 (F := Ideal) (iblk0 V c 0 t) j
    = qL (V c main_arg0) ((((cfg0.win 1).blk t).view.emb j) 0) ((((cfg0.win 1).blk t).view.emb j) 1)
  have h0 : ((((cfg0.win 1).blk t).view.emb j) 0 : Fin 8192) = (⟨t.val * 512 + (j 0).val, hr⟩ : Fin 8192) := Fin.ext (by
    show win0_1.index t (0 : Fin 2) * 512 + 1 * (j 0).val = t.val * 512 + (j 0).val; omega)
  have h1 : ((((cfg0.win 1).blk t).view.emb j) 1 : Fin 4096) = (⟨(j 1).val, hj1⟩ : Fin 4096) := Fin.ext (by
    show win0_1.index t (1 : Fin 2) * 4096 + 1 * (j 1).val = (j 1).val; omega)
  rw [h0, h1]
  refine (congrArg (k0_pay2 (F := Ideal) (iblk0 V c 0 t)) (eq_ix2 j)).trans ?_
  exact blk0_q (iblk0 V c 0 t) (V c main_arg0) ⟨(j 0).val, hj0⟩ ⟨(j 1).val, hj1⟩ ⟨t.val * 512 + (j 0).val, hr⟩
    (fun k => iblk0_row V c t ⟨(j 0).val, hj0⟩ k ⟨t.val * 512 + (j 0).val, hr⟩ rfl)

/-- WHAT POINT `t` WRITES BACK to the column of scales is block `t` of `sL` of the operand. -/
theorem flushed0_2_eq (c : Dev nD) (t : Fin cfg0.N) :
    (dat0 V c).flushed 2 t
      = ((cfg0.win 2).blk t).view.read (Elt Ideal) (fun i : S8192x1.Idx => sL (V c main_arg0) (i 0)) := by
  show (cfg0.win 2).cut (grid0.coords t) ((dat0 V c).after 2 t) = _
  rw [after0_2]
  unfold out0_2
  rw [View.canon_unit_zero hz0]
  simp only [View.ld_unit_zero (S := S512x4096) hz0]
  obtain ⟨-, -, -, -, e4, e5⟩ := idx_facts0 t
  funext j
  have hN : t.val < 16 := Nat.lt_of_lt_of_eq t.isLt N_0
  have hj0 : (j 0).val < 512 := (j 0).isLt
  have hj1 : (j 1).val < 1 := (j 1).isLt
  have hr : t.val * 512 + (j 0).val < 8192 := by omega
  show k0_pay1 (F := Ideal) (iblk0 V c 0 t) j = sL (V c main_arg0) ((((cfg0.win 2).blk t).view.emb j) 0)
  have h0 : ((((cfg0.win 2).blk t).view.emb j) 0 : Fin 8192) = (⟨t.val * 512 + (j 0).val, hr⟩ : Fin 8192) := Fin.ext (by
    show win0_2.index t (0 : Fin 2) * 512 + 1 * (j 0).val = t.val * 512 + (j 0).val; omega)
  rw [h0]
  refine (congrArg (k0_pay1 (F := Ideal) (iblk0 V c 0 t)) (eq_ix2 j)).trans ?_
  exact blk0_s (iblk0 V c 0 t) (V c main_arg0) ⟨(j 0).val, hj0⟩ ⟨(j 1).val, hj1⟩ ⟨t.val * 512 + (j 0).val, hr⟩
    (fun k => iblk0_row V c t ⟨(j 0).val, hj0⟩ k ⟨t.val * 512 + (j 0).val, hr⟩ rfl)

/-- An index of the quantised matrix is in point `t`'s block iff each coordinate is in the block's range on its axis. -/
theorem mem_blk0_1 (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0_0).slice (win0_1.rect t)).set ↔ _
  rw [View.set_slice_whole, Rect.mem_set_unit]
  exact Iff.rfl

/-- An index of the column of scales is in point `t`'s block iff each coordinate is in the block's range on its axis. -/
theorem mem_blk0_2 (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0_1).slice (win0_2.rect t)).set ↔ _
  rw [View.set_slice_whole, Rect.mem_set_unit]
  exact Iff.rfl

/-- Every entry of the quantised matrix is written back by the point of its row's block, `row / 512`. -/
theorem covered0_1 (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, e2, e3, -, -⟩ := idx_facts0 t
  refine ⟨t, flush0_1 t, ?_⟩
  rw [mem_blk0_1]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- Every entry of the column of scales is written back by the point of its row's block. -/
theorem covered0_2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, -, -, e4, e5⟩ := idx_facts0 t
  refine ⟨t, flush0_2 t, ?_⟩
  rw [mem_blk0_2]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1 ≤ (i 1).val ∧ (i 1).val < win0_2.index t (1 : Fin 2) * 1 + 1
    omega

/-- THE QUANTISED MATRIX after the region: entry `(r, k)` is `qL` of the operand at `(r, k)`. -/
theorem final0_q (c : Dev nD) :
    (dat0 V c).arrAt 1 cfg0.N = fun i => qL (V c main_arg0) (i 0) (i 1) :=
  (dat0 V c).arrAt_eq_of_cover 1 (fun i : S8192x4096.Idx => qL (V c main_arg0) (i 0) (i 1))
    (fun t _ => flushed0_1_eq V c t) covered0_1

/-- THE COLUMN OF SCALES after the region: entry `(r, 0)` is `sL` of the operand at row `r`. -/
theorem final0_s (c : Dev nD) :
    (dat0 V c).arrAt 2 cfg0.N = fun i => sL (V c main_arg0) (i 0) :=
  (dat0 V c).arrAt_eq_of_cover 2 (fun i : S8192x1.Idx => sL (V c main_arg0) (i 0))
    (fun t _ => flushed0_2_eq V c t) covered0_2

end Region0

end Cert.KernelIdeal.Hand

end
-- ==== Proof.LibColMax.lean ====
/-
  The maximum down the columns of an `[a, b]` array, read at a column.

  A maximum over the FIRST axis of an `[a, b]` array from the accumulator `−∞` is, at column `c`, the fold of `max`
  from `⊥` over the column's entries `v (k, c)`, `k` running over the `a` rows.
-/
import Idealize.ShloMosaic.Lib.ValueIdx
import Idealize.ShloMosaic.PureOps.Ideal.Laws

noncomputable section

namespace Idealize.ShloMosaic.ColMax

open Idealize.ShloMosaic Idealize.ShloMosaic.ValueIdx

variable {a b : ℕ}

/-- The binary32 word of `−∞` denotes `⊥`. -/
theorem ofBits_neg_inf : Ideal.ofBits .f32 0xFF800000#32 = (⊥ : EReal) := by
  simp [Ideal.ofBits, Ideal.ieee]

/-- The maximum over the first axis of an `[a, b]` array from the accumulator `−∞`, at column `c`, is the fold of
    `max` from `⊥` over the column's entries. -/
theorem colMax_apply (v : FVec Ideal ⟨2, ![a, b]⟩ .f32) (h : (⟨2, ![a, b]⟩ : Shape).Reduces [0] ⟨1, ![b]⟩)
    (hacc : (0xFF800000#32 : BitVec 32) = FKind.maximumf.neutral .f32 (.inl rfl)) (c : Fin b) :
    multiReduction .maximumf [0] ⟨1, ![b]⟩ v 0xFF800000#32 h (.inl rfl) hacc (ix1 c)
      = (Finset.univ : Finset (Fin a)).fold max ⊥ (fun k => v (ix2 k c)) := by
  refine (Ideal.multiReduction_maximumf_single v 0xFF800000#32 h (.inl rfl) hacc (ix1 c)).trans ?_
  rw [show (FloatOps.ofBits (F := Ideal) .f32 0xFF800000#32 : EReal) = ⊥ from ofBits_neg_inf]
  refine congrArg (fun f => (Finset.univ : Finset (Fin a)).fold max ⊥ f) (funext fun k => ?_)
  exact congrArg v (funext fun ax => Fin.ext (by
    match ax with
    | ⟨0, _⟩ => rfl
    | ⟨1, _⟩ => rfl))

end Idealize.ShloMosaic.ColMax

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.PayRhs.lean ====
/-
  The right operand's quantisation kernel, read entry by entry on the extended reals.

  On a block of 512 columns the kernel takes each column's largest absolute value (the maximum of `max x (−x)` down
  the column, from `−∞`), turns it into the column's scale (`amax / 127` when `amax > 0`, else `1`), and stores, for
  every entry, its quotient by the column's scale clamped to `[−127, 127]` and rounded to nearest, ties to even.  The
  scales are kept as a row `[1, 512]`, broadcast down the rows for the division.
-/
import proofs.«165695_j60069412602522_2_alg».proof.Proof.Spec
import proofs.«165695_j60069412602522_2_alg».proof.Proof.Gen.KernelIdeal.Skeleton
import proofs.«165695_j60069412602522_2_alg».proof.Proof.LibColMax
import proofs.«165695_j60069412602522_2_alg».proof.Proof.LibRowBroadcast
import proofs.«165695_j60069412602522_2_alg».proof.Proof.PayForms

noncomputable section

namespace Cert.KernelIdeal.PayVal

open Cert.KernelIdeal Cert.KernelIdeal.Gen Cert.QuantDot Idealize.ShloMosaic Idealize.ShloMosaic.ValueIdx

/-- The column maximum of the absolute values, kept as a row: at `(u, q)` it is the largest absolute value of
    column `q`. -/
theorem rhs_amax (x0 : Vec Ideal S4096x512 .f32) (u : Fin 1) (q : Fin 512) :
    shapeCast S1x512 (multiReduction .maximumf [0] S512 (absf (F := Ideal) x0) 0xFF800000#32
        reduces_S4096x512_S512 (.inl rfl) rfl) shapeCasts_S512_S1x512 (ix2 u q)
      = amaxOf fun k : Fin 4096 => x0 (ix2 k q) :=
  (RowBroadcast.shapeCast_flat_apply _ _ u q).trans (ColMax.colMax_apply _ _ rfl q)

/-- The scale the kernel stores for column `q`. -/
theorem pay1_scale (x0 : Vec Ideal S4096x512 .f32) (u : Fin 1) (q : Fin 512) :
    k1_pay1 (F := Ideal) x0 (ix2 u q) = scaleOf (amaxOf fun k : Fin 4096 => x0 (ix2 k q)) := by
  unfold k1_pay1
  exact (scale_form _ _).trans (congrArg scaleOf (rhs_amax x0 u q))

/-- The quantised entry the kernel stores at `(k, q)`. -/
theorem pay1_q (x0 : Vec Ideal S4096x512 .f32) (k : Fin 4096) (q : Fin 512) :
    k1_pay2 (F := Ideal) x0 (ix2 k q)
      = quant (x0 (ix2 k q)) (scaleOf (amaxOf fun k' : Fin 4096 => x0 (ix2 k' q))) := by
  have hs : broadcastTo S4096x512 (k1_pay1 (F := Ideal) x0) broadcasts_S1x512_S4096x512 (ix2 k q)
      = scaleOf (amaxOf fun k' : Fin 4096 => x0 (ix2 k' q)) :=
    (RowBroadcast.broadcastTo_row_apply _ _ k q).trans (pay1_scale x0 0 q)
  unfold k1_pay2
  exact (quant_form _ _ _ _).trans (congrArg (quant (x0 (ix2 k q))) hs)

end Cert.KernelIdeal.PayVal

end
-- ==== Proof.KerValueR.lean ====
/-
  The right operand's quantisation region, read as whole arrays on the extended reals.

  The region runs over 32 grid points; point `t` loads columns `512 t … 512 t + 511` of the operand, and writes back the
  same columns of the quantised matrix and of the row of scales.  A column's scale and quantised entries depend on that
  column of the operand only, and a block holds whole columns; so what point `t` writes back is block `t` of one
  function of the whole operand — entry `(k, r)` of the quantised matrix is `qR` at `(k, r)`, entry `(0, r)` of the
  scales is `sR` at `r` — and the 32 blocks cover every column.
-/
import proofs.«165695_j60069412602522_2_alg».proof.Proof.IFrameR
import proofs.«165695_j60069412602522_2_alg».proof.Proof.PayRhs
import Idealize.ShloMosaic.Lib.Pipeline.Value
import Idealize.ShloMosaic.Lib.ValueIdx

noncomputable section

namespace Cert.KernelIdeal.Hand

open Cert.KernelIdeal Cert.KernelIdeal.Gen Cert.KernelIdeal.PayVal Cert.QuantDot
open Idealize.ShloMosaic Idealize.ShloMosaic.TcCoe Idealize.ShloMosaic.ValueIdx Idealize.SL.Sem
open Idealize.ShloMosaic.Pipeline (Dat)

/-! ## One block's payloads as functions of the whole operand -/

/-- If column `q` of a block is column `r` of the operand, the block's quantised entry `(k, q)` is the operand's
    `(k, r)`. -/
theorem blk1_q (x0 : Vec Ideal S4096x512 .f32) (a1 : S4096x16384.Idx → EReal) (k : Fin 4096) (q : Fin 512)
    (r : Fin 16384) (hx : ∀ k' : Fin 4096, x0 (ix2 k' q) = a1 (ix2 k' r)) :
    k1_pay2 (F := Ideal) x0 (ix2 k q) = qR a1 k r := by
  rw [pay1_q]
  unfold qR sR
  rw [hx k, show (fun k' : Fin 4096 => x0 (ix2 k' q)) = fun k' => a1 (ix2 k' r) from funext hx]

/-- If column `q` of a block is column `r` of the operand, the block's scale at column `q` is the operand's at
    column `r`. -/
theorem blk1_s (x0 : Vec Ideal S4096x512 .f32) (a1 : S4096x16384.Idx → EReal) (u : Fin 1) (q : Fin 512)
    (r : Fin 16384) (hx : ∀ k' : Fin 4096, x0 (ix2 k' q) = a1 (ix2 k' r)) :
    k1_pay1 (F := Ideal) x0 (ix2 u q) = sR a1 r := by
  rw [pay1_scale]
  unfold sR
  rw [show (fun k' : Fin 4096 => x0 (ix2 k' q)) = fun k' => a1 (ix2 k' r) from funext hx]

/-! ## The region's arrays -/

section Region1
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: at point `t` every window is at block `(0, t)`. -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- Column `q` of the input block at point `t` is column `512 t + q` of the operand. -/
theorem iblk1_col (c : Dev nD) (t : Fin cfg1.N) (k : Fin 4096) (q : Fin 512) (r : Fin 16384)
    (hr : r.val = t.val * 512 + q.val) :
    iblk1 V c 0 t (ix2 k q) = V c main_arg1 (ix2 k r) := by
  obtain ⟨e0, e1, -, -, -, -⟩ := idx_facts1 t
  show V c main_arg1 (((cfg1.win 0).blk t).view.emb (ix2 k q)) = V c main_arg1 (ix2 k r)
  refine congrArg (V c main_arg1) (funext fun a => Fin.ext ?_)
  match a with
  | ⟨0, _⟩ => show win1_0.index t (0 : Fin 2) * 4096 + 1 * k.val = k.val; omega
  | ⟨1, _⟩ => show win1_0.index t (1 : Fin 2) * 512 + 1 * q.val = r.val; omega

/-- WHAT POINT `t` WRITES BACK to the quantised matrix is block `t` of `qR` of the operand. -/
theorem flushed1_1_eq (c : Dev nD) (t : Fin cfg1.N) :
    (dat1 V c).flushed 1 t
      = ((cfg1.win 1).blk t).view.read (Elt Ideal) (fun i : S4096x16384.Idx => qR (V c main_arg1) (i 0) (i 1)) := by
  show (cfg1.win 1).cut (grid1.coords t) ((dat1 V c).after 1 t) = _
  rw [after1_1]
  unfold out1_1
  rw [View.canon_unit_zero hz1]
  simp only [View.ld_unit_zero (S := S4096x512) hz1]
  obtain ⟨-, -, e2, e3, -, -⟩ := idx_facts1 t
  funext j
  have hN : t.val < 32 := Nat.lt_of_lt_of_eq t.isLt N_1
  have hj0 : (j 0).val < 4096 := (j 0).isLt
  have hj1 : (j 1).val < 512 := (j 1).isLt
  have hr : t.val * 512 + (j 1).val < 16384 := by omega
  show k1_pay2 (F := Ideal) (iblk1 V c 0 t) j
    = qR (V c main_arg1) ((((cfg1.win 1).blk t).view.emb j) 0) ((((cfg1.win 1).blk t).view.emb j) 1)
  have h0 : ((((cfg1.win 1).blk t).view.emb j) 0 : Fin 4096) = (⟨(j 0).val, hj0⟩ : Fin 4096) := Fin.ext (by
    show win1_1.index t (0 : Fin 2) * 4096 + 1 * (j 0).val = (j 0).val; omega)
  have h1 : ((((cfg1.win 1).blk t).view.emb j) 1 : Fin 16384) = (⟨t.val * 512 + (j 1).val, hr⟩ : Fin 16384) :=
    Fin.ext (by
      show win1_1.index t (1 : Fin 2) * 512 + 1 * (j 1).val = t.val * 512 + (j 1).val; omega)
  rw [h0, h1]
  refine (congrArg (k1_pay2 (F := Ideal) (iblk1 V c 0 t)) (eq_ix2 j)).trans ?_
  exact blk1_q (iblk1 V c 0 t) (V c main_arg1) ⟨(j 0).val, hj0⟩ ⟨(j 1).val, hj1⟩ ⟨t.val * 512 + (j 1).val, hr⟩
    (fun k' => iblk1_col V c t k' ⟨(j 1).val, hj1⟩ ⟨t.val * 512 + (j 1).val, hr⟩ rfl)

/-- WHAT POINT `t` WRITES BACK to the row of scales is block `t` of `sR` of the operand. -/
theorem flushed1_2_eq (c : Dev nD) (t : Fin cfg1.N) :
    (dat1 V c).flushed 2 t
      = ((cfg1.win 2).blk t).view.read (Elt Ideal) (fun i : S1x16384.Idx => sR (V c main_arg1) (i 1)) := by
  show (cfg1.win 2).cut (grid1.coords t) ((dat1 V c).after 2 t) = _
  rw [after1_2]
  unfold out1_2
  rw [View.canon_unit_zero hz1]
  simp only [View.ld_unit_zero (S := S4096x512) hz1]
  obtain ⟨-, -, -, -, e4, e5⟩ := idx_facts1 t
  funext j
  have hN : t.val < 32 := Nat.lt_of_lt_of_eq t.isLt N_1
  have hj0 : (j 0).val < 1 := (j 0).isLt
  have hj1 : (j 1).val < 512 := (j 1).isLt
  have hr : t.val * 512 + (j 1).val < 16384 := by omega
  show k1_pay1 (F := Ideal) (iblk1 V c 0 t) j = sR (V c main_arg1) ((((cfg1.win 2).blk t).view.emb j) 1)
  have h1 : ((((cfg1.win 2).blk t).view.emb j) 1 : Fin 16384) = (⟨t.val * 512 + (j 1).val, hr⟩ : Fin 16384) :=
    Fin.ext (by
      show win1_2.index t (1 : Fin 2) * 512 + 1 * (j 1).val = t.val * 512 + (j 1).val; omega)
  rw [h1]
  refine (congrArg (k1_pay1 (F := Ideal) (iblk1 V c 0 t)) (eq_ix2 j)).trans ?_
  exact blk1_s (iblk1 V c 0 t) (V c main_arg1) ⟨(j 0).val, hj0⟩ ⟨(j 1).val, hj1⟩ ⟨t.val * 512 + (j 1).val, hr⟩
    (fun k' => iblk1_col V c t k' ⟨(j 1).val, hj1⟩ ⟨t.val * 512 + (j 1).val, hr⟩ rfl)

/-- An index of the quantised matrix is in point `t`'s block iff each coordinate is in the block's range on its axis. -/
theorem mem_blk1_1 (t : Fin cfg1.N) (i : S4096x16384.Idx) :
    i ∈ ((cfg1.win 1).blk t).view.set ↔ ∀ a : Fin 2, win1_1.index t a * S4096x512.size a ≤ (i a).val
      ∧ (i a).val < win1_1.index t a * S4096x512.size a + S4096x512.size a := by
  show i ∈ ((View.whole main_v1_0).slice (win1_1.rect t)).set ↔ _
  rw [View.set_slice_whole, Rect.mem_set_unit]
  exact Iff.rfl

/-- An index of the row of scales is in point `t`'s block iff each coordinate is in the block's range on its axis. -/
theorem mem_blk1_2 (t : Fin cfg1.N) (i : S1x16384.Idx) :
    i ∈ ((cfg1.win 2).blk t).view.set ↔ ∀ a : Fin 2, win1_2.index t a * S1x512.size a ≤ (i a).val
      ∧ (i a).val < win1_2.index t a * S1x512.size a + S1x512.size a := by
  show i ∈ ((View.whole main_v1_1).slice (win1_2.rect t)).set ↔ _
  rw [View.set_slice_whole, Rect.mem_set_unit]
  exact Iff.rfl

/-- Every entry of the quantised matrix is written back by the point of its column's block, `column / 512`. -/
theorem covered1_1 (i : S4096x16384.Idx) :
    ∃ t : Fin cfg1.N, (cfg1.win 1).flush t = true ∧ i ∈ ((cfg1.win 1).blk t).view.set := by
  have hi0 : (i 0).val < 4096 := (i 0).isLt
  have hi1 : (i 1).val < 16384 := (i 1).isLt
  obtain ⟨t, ht⟩ : ∃ t : Fin cfg1.N, t.val = (i 1).val / 512 :=
    ⟨⟨(i 1).val / 512, Nat.lt_of_lt_of_eq (by omega : (i 1).val / 512 < 32) N_1.symm⟩, rfl⟩
  obtain ⟨-, -, e2, e3, -, -⟩ := idx_facts1 t
  refine ⟨t, flush1_1 t, ?_⟩
  rw [mem_blk1_1]
  intro a
  match a with
  | ⟨0, _⟩ =>
    show win1_1.index t (0 : Fin 2) * 4096 ≤ (i 0).val ∧ (i 0).val < win1_1.index t (0 : Fin 2) * 4096 + 4096
    omega
  | ⟨1, _⟩ =>
    show win1_1.index t (1 : Fin 2) * 512 ≤ (i 1).val ∧ (i 1).val < win1_1.index t (1 : Fin 2) * 512 + 512
    omega

/-- Every entry of the row of scales is written back by the point of its column's block. -/
theorem covered1_2 (i : S1x16384.Idx) :
    ∃ t : Fin cfg1.N, (cfg1.win 2).flush t = true ∧ i ∈ ((cfg1.win 2).blk t).view.set := by
  have hi0 : (i 0).val < 1 := (i 0).isLt
  have hi1 : (i 1).val < 16384 := (i 1).isLt
  obtain ⟨t, ht⟩ : ∃ t : Fin cfg1.N, t.val = (i 1).val / 512 :=
    ⟨⟨(i 1).val / 512, Nat.lt_of_lt_of_eq (by omega : (i 1).val / 512 < 32) N_1.symm⟩, rfl⟩
  obtain ⟨-, -, -, -, e4, e5⟩ := idx_facts1 t
  refine ⟨t, flush1_2 t, ?_⟩
  rw [mem_blk1_2]
  intro a
  match a with
  | ⟨0, _⟩ =>
    show win1_2.index t (0 : Fin 2) * 1 ≤ (i 0).val ∧ (i 0).val < win1_2.index t (0 : Fin 2) * 1 + 1
    omega
  | ⟨1, _⟩ =>
    show win1_2.index t (1 : Fin 2) * 512 ≤ (i 1).val ∧ (i 1).val < win1_2.index t (1 : Fin 2) * 512 + 512
    omega

/-- THE QUANTISED MATRIX after the region: entry `(k, r)` is `qR` of the operand at `(k, r)`. -/
theorem final1_q (c : Dev nD) :
    (dat1 V c).arrAt 1 cfg1.N = fun i => qR (V c main_arg1) (i 0) (i 1) :=
  (dat1 V c).arrAt_eq_of_cover 1 (fun i : S4096x16384.Idx => qR (V c main_arg1) (i 0) (i 1))
    (fun t _ => flushed1_1_eq V c t) covered1_1

/-- THE ROW OF SCALES after the region: entry `(0, r)` is `sR` of the operand at column `r`. -/
theorem final1_s (c : Dev nD) :
    (dat1 V c).arrAt 2 cfg1.N = fun i => sR (V c main_arg1) (i 1) :=
  (dat1 V c).arrAt_eq_of_cover 2 (fun i : S1x16384.Idx => sR (V c main_arg1) (i 1))
    (fun t _ => flushed1_2_eq V c t) covered1_2

end Region1

end Cert.KernelIdeal.Hand

end
-- ==== Proof.KerBlocksD.lean ====
/-
  The third kernel's blocks read off the arrays the region is entered with, at any float instance.

  The grid point at position `t` of the 8 × 16 × 4 grid has row-block `t / 64`, column-block `(t / 4) % 16` and
  contraction-block `t % 4`. Its left block is rows `1024·(t/64) …` and columns `1024·(t%4) …` of the quantised left
  operand; its right block rows `1024·(t%4) …` and columns `1024·((t/4)%16) …` of the quantised right operand; its scale
  column and scale row the matching stretches of the two scale arrays; its output block rows `1024·(t/64) …` and columns
  `1024·((t/4)%16) …` of the result.
-/
import proofs.«165695_j60069412602522_2_alg».proof.Proof.IFrameD1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The five windows' block indices at every grid point, decided over the grid. -/
theorem idx2 : ∀ t : Fin cfg2.N,
    win2_0.index t (0 : Fin 2) = t.val / 64 ∧ win2_0.index t (1 : Fin 2) = t.val % 4
    ∧ win2_1.index t (0 : Fin 2) = t.val % 4 ∧ win2_1.index t (1 : Fin 2) = (t.val / 4) % 16
    ∧ win2_2.index t (0 : Fin 2) = t.val / 64 ∧ win2_2.index t (1 : Fin 2) = 0
    ∧ win2_3.index t (0 : Fin 2) = 0 ∧ win2_3.index t (1 : Fin 2) = (t.val / 4) % 16
    ∧ win2_4.index t (0 : Fin 2) = t.val / 64 ∧ win2_4.index t (1 : Fin 2) = (t.val / 4) % 16 :=
  (by decide +kernel : ∀ t : Fin grid2.N, _)

/-- The left block's entry `x` is the quantised left operand's entry `k` at the matching row and column. -/
theorem iblk2_0_apply (c : Dev nD) (t : Fin cfg2.N) (x : S1024x1024.Idx) (k : S8192x4096.Idx)
    (hk0 : (k 0).val = 1024 * (t.val / 64) + (x 0).val) (hk1 : (k 1).val = 1024 * (t.val % 4) + (x 1).val) :
    (iblk2 V c 0 t : Vec F S1024x1024 .bf16) x = (V c main_v0_0 : S8192x4096.Idx → Elt F .bf16) k := by
  obtain ⟨e0, e1, -⟩ := idx2 t
  unfold iblk2
  rw [View.read_apply]
  show V c main_v0_0 _ = V c main_v0_0 _
  congr 1
  funext a
  apply Fin.ext
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The right block's entry. -/
theorem iblk2_1_apply (c : Dev nD) (t : Fin cfg2.N) (x : S1024x1024.Idx) (k : S4096x16384.Idx)
    (hk0 : (k 0).val = 1024 * (t.val % 4) + (x 0).val) (hk1 : (k 1).val = 1024 * ((t.val / 4) % 16) + (x 1).val) :
    (iblk2 V c 1 t : Vec F S1024x1024 .bf16) x = (V c main_v1_0 : S4096x16384.Idx → Elt F .bf16) k := by
  obtain ⟨-, -, e0, e1, -⟩ := idx2 t
  unfold iblk2
  rw [View.read_apply]
  show V c main_v1_0 _ = V c main_v1_0 _
  congr 1
  funext a
  apply Fin.ext
  match a with
  | ⟨0, _⟩ => show win2_1.index t 0 * 1024 + 1 * (x 0).val = (k 0).val; rw [e0, hk0]; omega
  | ⟨1, _⟩ => show win2_1.index t 1 * 1024 + 1 * (x 1).val = (k 1).val; rw [e1, hk1]; omega

/-- The scale column's entry. -/
theorem iblk2_2_apply (c : Dev nD) (t : Fin cfg2.N) (x : S1024x1.Idx) (k : S8192x1.Idx)
    (hk0 : (k 0).val = 1024 * (t.val / 64) + (x 0).val) :
    (iblk2 V c 2 t : Vec F S1024x1 .f32) x = (V c main_v0_1 : S8192x1.Idx → Elt F .f32) k := by
  obtain ⟨-, -, -, -, e0, e1, -⟩ := idx2 t
  unfold iblk2
  rw [View.read_apply]
  show V c main_v0_1 _ = V c main_v0_1 _
  congr 1
  funext a
  apply Fin.ext
  match a with
  | ⟨0, _⟩ => show win2_2.index t 0 * 1024 + 1 * (x 0).val = (k 0).val; rw [e0, hk0]; omega
  | ⟨1, _⟩ =>
    show win2_2.index t 1 * 1 + 1 * (x 1).val = (k 1).val
    have hx : (x 1).val < 1 := (x 1).isLt
    have hk : (k 1).val < 1 := (k 1).isLt
    rw [e1]; omega

/-- The scale row's entry. -/
theorem iblk2_3_apply (c : Dev nD) (t : Fin cfg2.N) (x : S1x1024.Idx) (k : S1x16384.Idx)
    (hk1 : (k 1).val = 1024 * ((t.val / 4) % 16) + (x 1).val) :
    (iblk2 V c 3 t : Vec F S1x1024 .f32) x = (V c main_v1_1 : S1x16384.Idx → Elt F .f32) k := by
  obtain ⟨-, -, -, -, -, -, e0, e1, -⟩ := idx2 t
  unfold iblk2
  rw [View.read_apply]
  show V c main_v1_1 _ = V c main_v1_1 _
  congr 1
  funext a
  apply Fin.ext
  match a with
  | ⟨0, _⟩ =>
    show win2_3.index t 0 * 1 + 1 * (x 0).val = (k 0).val
    have hx : (x 0).val < 1 := (x 0).isLt
    have hk : (k 0).val < 1 := (k 0).isLt
    rw [e0]; omega
  | ⟨1, _⟩ => show win2_3.index t 1 * 1024 + 1 * (x 1).val = (k 1).val; rw [e1, hk1]; omega

end Cert.KernelIdeal.Hand

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRealMatmul.lean ====
/-
  Matrix products of real matrices, on the extended reals.

  A product `Σ j, l p j · w j c` of extended reals is bilinear and associative only away from the infinities.  When every
  entry is a real number the sums are real sums: a product of real matrices is real, a real matrix clamped below at
  `0` is real, and `(z · K) · V = z · (K · V)` — both sides are the double sum `Σ i, Σ j, z p i · K i j · V j c`.

  Also here: an `[a, b]` array read as a function of its two coordinates, and, for a dimension record of a plain
  `[a, k] × [k, b]` product, the two index facts that its non-contracted axes give (each by evaluating the record's lists).
-/
import Idealize.ShloMosaic.Lib.ValueIdx
import Idealize.ShloMosaic.PureOps.Ideal.Laws

noncomputable section

namespace Idealize.ShloMosaic.RealMatmul

open Idealize.ShloMosaic Idealize.ShloMosaic.ValueIdx

/-- For a dimension record `D` whose left operand's axis 0 is its one non-contracting axis: the left operand's index
    at `(i, q)` has first coordinate `i 0`.  Read off the record's lists. -/
macro "left_row_of% " D:term : term => `(fun i q => by
  unfold DotDims.lhsIdx
  rw [dif_neg (show ¬(0 : Fin _) ∈ ($D).lhsBatch by decide), dif_pos (show (0 : Fin _) ∈ ($D).lhsNonContracting by decide)]
  rfl)

/-- For a dimension record `D` whose right operand's axis 1 is its one non-contracting axis: the right operand's
    index at `(i, q)` has second coordinate `i 1`.  Read off the record's lists. -/
macro "right_col_of% " D:term : term => `(fun i q => by
  unfold DotDims.rhsIdx
  rw [dif_neg (show ¬(1 : Fin _) ∈ ($D).rhsBatch by decide), dif_pos (show (1 : Fin _) ∈ ($D).rhsNonContracting by decide)]
  rfl)

variable {a k r b : ℕ}

/-- An `[a, b]` array as a function of its two coordinates. -/
abbrev mat (v : FVec Ideal ⟨2, ![a, b]⟩ .f32) : Fin a → Fin b → EReal := fun p c => v (ix2 p c)

/-- The matrix product of extended reals: entry `(p, c)` is `Σ j, l p j · w j c`. -/
def dot (l : Fin a → Fin k → EReal) (w : Fin k → Fin b → EReal) : Fin a → Fin b → EReal :=
  fun p c => ∑ j : Fin k, l p j * w j c

/-- Clamping below at `0`, entry by entry. -/
def relu (z : Fin a → Fin b → EReal) : Fin a → Fin b → EReal := fun p c => max (z p c) 0

/-- Every entry is a real number. -/
def AllReal (z : Fin a → Fin b → EReal) : Prop := ∀ p c, ∃ x : ℝ, z p c = (x : EReal)

/-- The inclusion of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A product of real matrices is real. -/
theorem allReal_dot {l : Fin a → Fin k → EReal} {w : Fin k → Fin b → EReal} (hl : AllReal l) (hw : AllReal w) :
    AllReal (dot l w) := by
  choose l' hl' using hl
  choose w' hw' using hw
  intro p c
  refine ⟨∑ j : Fin k, l' p j * w' j c, ?_⟩
  simp only [dot, hl', hw', ← EReal.coe_mul, ← coe_sum]

/-- A real matrix clamped at `0` is real. -/
theorem allReal_relu {z : Fin a → Fin b → EReal} (hz : AllReal z) : AllReal (relu z) := by
  intro p c
  obtain ⟨x, hx⟩ := hz p c
  refine ⟨max x 0, ?_⟩
  show max (z p c) 0 = _
  rw [hx, ← EReal.coe_zero]
  exact (EReal.coe_strictMono.monotone.map_max).symm

/-- Matrix multiplication of real matrices is associative: both sides are the double sum
    `Σ i, Σ j, z p i · K i j · V j c`. -/
theorem dot_assoc {z : Fin a → Fin k → EReal} {K : Fin k → Fin r → EReal} {V : Fin r → Fin b → EReal}
    (hz : AllReal z) (hK : AllReal K) (hV : AllReal V) : dot (dot z K) V = dot z (dot K V) := by
  choose z' hz' using hz
  choose K' hK' using hK
  choose V' hV' using hV
  funext p c
  simp only [dot, hz', hK', hV', ← EReal.coe_mul, ← coe_sum]
  refine congrArg Real.toEReal ?_
  simp only [Finset.sum_mul, Finset.mul_sum]
  rw [Finset.sum_comm]
  exact Finset.sum_congr rfl fun i _ => Finset.sum_congr rfl fun j _ => by ring

end Idealize.ShloMosaic.RealMatmul

end
-- ==== Proof.PayDot.lean ====
/-
  The product kernel's three stored values, read entry by entry on the extended reals.

  On a `1024 × 1024` tile the kernel stores zero into its accumulator at the first block of the contracted axis; at
  every block it stores the accumulator plus the product of the two quantised blocks, whose entry `(p, q)` is
  `∑ u, l (p, u) · r (u, q)` (the matrix unit starts from a zero accumulator of its own, and a reshape to the same shape
  is the identity); and at the last block it stores the accumulator times the row's scale (a `[1024, 1]` column
  broadcast over the lanes) times the column's scale (a `[1, 1024]` row broadcast down the rows).
-/
import proofs.«165695_j60069412602522_2_alg».proof.Proof.Spec
import proofs.«165695_j60069412602522_2_alg».proof.Proof.Gen.KernelIdeal.Skeleton
import proofs.«165695_j60069412602522_2_alg».proof.Proof.LibKeepdims
import proofs.«165695_j60069412602522_2_alg».proof.Proof.LibRowBroadcast
import proofs.«165695_j60069412602522_2_alg».proof.Proof.LibPlainDot
import proofs.«165695_j60069412602522_2_alg».proof.Proof.LibRealMatmul

noncomputable section

namespace Cert.KernelIdeal.PayVal

open Cert.KernelIdeal Cert.KernelIdeal.Gen Cert.QuantDot Idealize.ShloMosaic Idealize.ShloMosaic.ValueIdx

/-- The value stored into the accumulator at the first block: zero everywhere. -/
theorem pay2_zero (p q : Fin 1024) : k2_pay1 (F := Ideal) (ix2 p q) = 0 := by
  unfold k2_pay1
  refine (congrFun (shapeCast_self _ _) (ix2 p q)).trans ?_
  simp only [broadcast_apply, Ideal.ofBits_def, Ideal.ofBits_zero_f32]

/-- The matrix unit into its zero accumulator: entry `(p, q)` of the product of two `1024 × 1024` blocks. -/
theorem block_dot (l r : FVec Ideal S1024x1024 .bf16) (p q : Fin 1024) :
    matmul dot_S1024x1024_S1024x1024_S1024x1024_1_0_0_1_n_n none l r
        (constant (F := Ideal) S1024x1024 .f32 0x00000000#32) (ix2 p q)
      = ∑ u : Fin 1024, l (ix2 p u) * r (ix2 u q) :=
  PlainDot.matmul_zero_apply dot_S1024x1024_S1024x1024_S1024x1024_1_0_0_1_n_n none rfl rfl
    (left_row_of% dot_S1024x1024_S1024x1024_S1024x1024_1_0_0_1_n_n) (fun _ _ => rfl) (fun _ _ => rfl)
    (right_col_of% dot_S1024x1024_S1024x1024_S1024x1024_1_0_0_1_n_n) l r p q

/-- The value stored into the accumulator at every block: the accumulator plus the block product. -/
theorem pay2_acc (v3 : Vec Ideal S1024x1024 .f32) (v4 v6 : Vec Ideal S1024x1024 .bf16) (p q : Fin 1024) :
    k2_pay2 (F := Ideal) v3 v4 v6 (ix2 p q) = v3 (ix2 p q) + ∑ u : Fin 1024, v4 (ix2 p u) * v6 (ix2 u q) := by
  unfold k2_pay2
  refine (congrFun (shapeCast_self _ _) (ix2 p q)).trans ?_
  refine (addf_apply _ _ _).trans ?_
  refine congrArg (fun t : EReal => v3 (ix2 p q) + t) ?_
  refine (block_dot _ _ p q).trans ?_
  exact Finset.sum_congr rfl fun u _ =>
    congrArg₂ (fun a b : EReal => a * b) (congrFun (shapeCast_self v4 _) (ix2 p u)) (congrFun (shapeCast_self v6 _) (ix2 u q))

/-- The value stored into the output at the last block: the accumulator rescaled by the row's and the column's scale. -/
theorem pay2_out (v16 : Vec Ideal S1024x1024 .f32) (v17 : Vec Ideal S1024x1 .f32) (v21 : Vec Ideal S1x1024 .f32)
    (p q : Fin 1024) :
    k2_pay3 (F := Ideal) v16 v17 v21 (ix2 p q)
      = v16 (ix2 p q) * v17 (ix2 p (0 : Fin 1)) * v21 (ix2 (0 : Fin 1) q) := by
  have hc : broadcastTo S1024x1024 (shapeCast S1024x1 v17 shapeCasts_S1024x1_S1024x1) broadcasts_S1024x1_S1024x1024 (ix2 p q)
      = v17 (ix2 p (0 : Fin 1)) :=
    (Keepdims.broadcastTo_a1_ab_apply _ _ p q).trans (congrFun (shapeCast_self v17 _) _)
  have hr : broadcastTo S1024x1024 (shapeCast S1x1024 v21 shapeCasts_S1x1024_S1x1024) broadcasts_S1x1024_S1024x1024 (ix2 p q)
      = v21 (ix2 (0 : Fin 1) q) :=
    (RowBroadcast.broadcastTo_row_apply _ _ p q).trans (congrFun (shapeCast_self v21 _) _)
  unfold k2_pay3
  refine (mulf_apply _ _ _).trans ?_
  refine congrArg₂ (fun a b : EReal => a * b) ?_ hr
  refine (mulf_apply _ _ _).trans ?_
  exact congrArg (fun a : EReal => v16 (ix2 p q) * a) hc

end Cert.KernelIdeal.PayVal

end
-- ==== Proof.TileSpec.lean ====
/-
  The third kernel's result as a function of the four arrays it reads: the product of an [8192,4096] matrix `A` and a
  [4096,16384] matrix `B`, accumulated from zero over four blocks of 1024 of the contracted axis, then rescaled by a
  column `s` (one factor per row) and by a row `r` (one factor per column). With `A`, `B`, `s`, `r` the quantised
  operands and their scales this is the kernel's arrangement `kerOut` of the specification.
-/
import proofs.«165695_j60069412602522_2_alg».proof.Proof.Spec

noncomputable section

namespace Cert.QuantDot

open Idealize.ShloMosaic Idealize.ShloMosaic.ValueIdx

abbrev ShSL : Shape := ⟨2, ![8192, 1]⟩
abbrev ShSR : Shape := ⟨2, ![1, 16384]⟩

/-- One block's share of the product of `A` and `B` at entry `(i, j)`. -/
def tileDot (A : ShL.Idx → EReal) (B : ShR.Idx → EReal) (b : Fin 4) (i : Fin 8192) (j : Fin 16384) : EReal :=
  ∑ u : Fin 1024, A (ix2 i (kpos b u)) * B (ix2 (kpos b u) j)

/-- The four block products added one after the other from zero, then the two rescalings. -/
def tileOut (A : ShL.Idx → EReal) (B : ShR.Idx → EReal) (s : ShSL.Idx → EReal) (r : ShSR.Idx → EReal)
    (i : Fin 8192) (j : Fin 16384) : EReal :=
  ((((0 + tileDot A B 0 i j) + tileDot A B 1 i j) + tileDot A B 2 i j) + tileDot A B 3 i j)
    * s (ix2 i (0 : Fin 1)) * r (ix2 (0 : Fin 1) j)

/-- At the quantised operands and their scales the tiled product is the specification's kernel arrangement. -/
theorem tileOut_quant (lhs : ShL.Idx → EReal) (rhs : ShR.Idx → EReal) (i : Fin 8192) (j : Fin 16384) :
    tileOut (fun x => qL lhs (x 0) (x 1)) (fun x => qR rhs (x 0) (x 1)) (fun x => sL lhs (x 0)) (fun x => sR rhs (x 1)) i j
      = kerOut lhs rhs i j := rfl

end Cert.QuantDot

end
-- ==== Proof.KerValueD.lean ====
/-
  What the third kernel leaves in its result array, as one function of the four arrays the region is entered with.

  Along each run of four grid points (one output tile) the accumulator holds, after the point at contraction-block
  `k`, the sum `(((0 + d₀) + d₁) + …) + d_k` of the block products `d_b(p, q) = ∑ u, A(row p, 1024·b + u) · B(1024·b + u, col q)`:
  the first point writes zero and adds `d₀`, each later point adds its own block product onto what the point before left.
  The last point of the run writes the accumulator, multiplied by the row's scale and by the column's scale, into the
  output tile, which is then written back; the 128 tiles written back cover the result array.
-/
import proofs.«165695_j60069412602522_2_alg».proof.Proof.KerBlocksD
import proofs.«165695_j60069412602522_2_alg».proof.Proof.PayDot
import proofs.«165695_j60069412602522_2_alg».proof.Proof.TileSpec

set_option maxRecDepth 16384

noncomputable section

namespace Cert.KernelIdeal.Hand

open Cert.KernelIdeal Cert.KernelIdeal.Gen Cert.QuantDot
open Idealize.ShloMosaic Idealize.ShloMosaic.TcCoe Idealize.ShloMosaic.Tactic Idealize.SL.Sem
open Idealize.ShloMosaic.ValueIdx
open Idealize.ShloMosaic.Pipeline (Dat)

theorem hz : (![0, 0] : Fin 2 → Nat) = fun _ => 0 := funext fun a => by fin_cases a <;> rfl

/-! ## What each run leaves, as the body's arithmetic of the point's blocks (any float instance) -/

section Pieces
variable {F : FTy → Type} [FloatOps F]
variable (V : (c : Dev nD) → (b : Ref sig .tc) → Buf (Elt F) ((c : Thread nD τ).loc b))

/-- A first point leaves in the accumulator the zero fill plus its block product. -/
theorem sA_eq (c : Dev nD) (t : Fin cfg2.N) (h0 : t.val % 4 = 0) :
    sA V c t h0 = k2_pay2 (k2_pay1 (F := F)) (iblk2 V c 0 t) (iblk2 V c 1 t) := by
  unfold sA
  rw [View.read_writes_eq_canon _ _ _ (scoverA V c t h0)]
  unfold runA kernelRun2_A
  dsimp only
  try sl_unfold_words
  rw [View.canon_cons_unit_zero hz, View.readCov_unit_zero (S := S1024x1024) _ hz]
  simp only [View.readAt_eq_ld, (hs2_0 t).read_unread, (hs2_1 t).read_unread, View.ld_unit_zero (S := S1024x1024) hz]

/-- A middle point adds its block product onto what the accumulator held. -/
theorem sB_eq (c : Dev nD) (t : Fin cfg2.N) (h0 : ¬t.val % 4 = 0) (h1 : ¬t.val % 4 = 3) (xs : Vec F S1024x1024 .f32) :
    sB V c t h0 h1 xs = k2_pay2 xs (iblk2 V c 0 t) (iblk2 V c 1 t) := by
  have hS : (scM2 : Memref sig .tc .vmem S1024x1024 .f32).IsWhole := Memref.isWhole_whole _
  unfold sB
  rw [View.read_writes_eq_canon _ _ _ (scoverB V c t h0 h1 xs)]
  unfold runB kernelRun2_B
  dsimp only
  try sl_unfold_words
  rw [View.canon_unit_zero hz]
  simp only [View.readAt_eq_ld, hS.read_unread, (hs2_0 t).read_unread, (hs2_1 t).read_unread, View.ld_unit_zero (S := S1024x1024) hz]

/-- So does a last point, -/
theorem sC_eq (c : Dev nD) (t : Fin cfg2.N) (h0 : ¬t.val % 4 = 0) (h1 : t.val % 4 = 3) (xs : Vec F S1024x1024 .f32) :
    sC V c t h0 h1 xs = k2_pay2 xs (iblk2 V c 0 t) (iblk2 V c 1 t) := by
  have hS : (scM2 : Memref sig .tc .vmem S1024x1024 .f32).IsWhole := Memref.isWhole_whole _
  unfold sC
  rw [View.read_writes_eq_canon _ _ _ (scoverC V c t h0 h1 xs)]
  unfold runC kernelRun2_C
  dsimp only
  try sl_unfold_words
  rw [View.canon_unit_zero hz]
  simp only [View.readAt_eq_ld, hS.read_unread, (hs2_0 t).read_unread, (hs2_1 t).read_unread, View.ld_unit_zero (S := S1024x1024) hz]

/-- which then stores the accumulator, rescaled by the point's scale column and scale row, into the output's buffer. -/
theorem oC_eq (c : Dev nD) (t : Fin cfg2.N) (h0 : ¬t.val % 4 = 0) (h1 : t.val % 4 = 3) (xs : Vec F S1024x1024 .f32) :
    oC V c t h0 h1 xs = k2_pay3 (k2_pay2 xs (iblk2 V c 0 t) (iblk2 V c 1 t)) (iblk2 V c 2 t) (iblk2 V c 3 t) := by
  have hS : (scM2 : Memref sig .tc .vmem S1024x1024 .f32).IsWhole := Memref.isWhole_whole _
  unfold oC
  rw [View.read_writes_eq_canon _ _ _ (coverC V c t h0 h1 xs)]
  unfold runC kernelRun2_C
  dsimp only
  try sl_unfold_words
  rw [View.canon_unit_zero hz, View.readCov_unit_zero (S := S1024x1024) _ hz]
  simp only [View.readAt_eq_ld, hS.read_unread, (hs2_0 t).read_unread, (hs2_1 t).read_unread, (hs2_2 t).read_unread, (hs2_3 t).read_unread,
    View.ld_unit_zero (S := S1024x1024) hz, View.ld_unit_zero (S := S1024x1) hz, View.ld_unit_zero (S := S1x1024) hz]

end Pieces

/-! ## The accumulation, on the extended reals -/

section Ideal
variable (V : (c : Dev nD) → (b : Ref sig .tc) → Buf (Elt Ideal) ((c : Thread nD τ).loc b))

/-- The four arrays the region reads, as it finds them. -/
abbrev arrA (c : Dev nD) : ShL.Idx → EReal := V c main_v0_0
abbrev arrB (c : Dev nD) : ShR.Idx → EReal := V c main_v1_0
abbrev arrS (c : Dev nD) : ShSL.Idx → EReal := V c main_v0_1
abbrev arrR (c : Dev nD) : ShSR.Idx → EReal := V c main_v1_1

/-- Row `p` of the tile of grid position `n`, column `q` of it, position `u` of contraction block `b`, in the whole arrays. -/
def rowOf (n : ℕ) (p : Fin 1024) : Fin 8192 := ⟨1024 * ((n / 64) % 8) + p.val, by omega⟩
def colOf (n : ℕ) (q : Fin 1024) : Fin 16384 := ⟨1024 * ((n / 4) % 16) + q.val, by omega⟩
def kOf (b : ℕ) (u : Fin 1024) : Fin 4096 := ⟨(b % 4) * 1024 + u.val, by omega⟩

/-- Block `b`'s share of the product at entry `(i, j)`. -/
def td (A : ShL.Idx → EReal) (B : ShR.Idx → EReal) (b : ℕ) (i : Fin 8192) (j : Fin 16384) : EReal :=
  ∑ u : Fin 1024, A (ix2 i (kOf b u)) * B (ix2 (kOf b u) j)

/-- The accumulator after the point at contraction block `k`: the block products added one after the other from zero. -/
def accK (A : ShL.Idx → EReal) (B : ShR.Idx → EReal) : ℕ → Fin 8192 → Fin 16384 → EReal
  | 0, i, j => 0 + td A B 0 i j
  | k + 1, i, j => accK A B k i j + td A B (k + 1) i j

/-- The point's four input blocks, at their literal vector types. -/
abbrev blkA (c : Dev nD) (t : Fin cfg2.N) : Vec Ideal S1024x1024 .bf16 := iblk2 V c 0 t
abbrev blkB (c : Dev nD) (t : Fin cfg2.N) : Vec Ideal S1024x1024 .bf16 := iblk2 V c 1 t
abbrev blkS (c : Dev nD) (t : Fin cfg2.N) : Vec Ideal S1024x1 .f32 := iblk2 V c 2 t
abbrev blkR (c : Dev nD) (t : Fin cfg2.N) : Vec Ideal S1x1024 .f32 := iblk2 V c 3 t

theorem accK_zero (A : ShL.Idx → EReal) (B : ShR.Idx → EReal) (i : Fin 8192) (j : Fin 16384) :
    accK A B 0 i j = 0 + td A B 0 i j := rfl
theorem accK_succ (A : ShL.Idx → EReal) (B : ShR.Idx → EReal) (k : ℕ) (i : Fin 8192) (j : Fin 16384) :
    accK A B (k + 1) i j = accK A B k i j + td A B (k + 1) i j := rfl

theorem lt512 (t : Fin cfg2.N) : t.val < 512 := lt_of_lt_of_eq t.isLt N_2

/-- The point's block product, from its two blocks, is the share `td` of its contraction block. -/
theorem blocks_td (c : Dev nD) (t : Fin cfg2.N) (b : ℕ) (hb : b % 4 = t.val % 4) (p q : Fin 1024) :
    ∑ u : Fin 1024, blkA V c t (ix2 p u) * blkB V c t (ix2 u q)
      = td (arrA V c) (arrB V c) b (rowOf t.val p) (colOf t.val q) := by
  have ht := lt512 t
  unfold td
  refine Finset.sum_congr rfl fun u _ => ?_
  exact congrArg₂ (· * ·)
    (iblk2_0_apply V c t (ix2 p u) (ix2 (rowOf t.val p) (kOf b u))
      (by show 1024 * ((t.val / 64) % 8) + p.val = 1024 * (t.val / 64) + p.val; omega)
      (by show (b % 4) * 1024 + u.val = 1024 * (t.val % 4) + u.val; omega))
    (iblk2_1_apply V c t (ix2 u q) (ix2 (kOf b u) (colOf t.val q))
      (by show (b % 4) * 1024 + u.val = 1024 * (t.val % 4) + u.val; omega)
      (by show 1024 * ((t.val / 4) % 16) + q.val = 1024 * ((t.val / 4) % 16) + q.val; rfl))

/-- After a first point the accumulator holds `0 + d₀`. -/
theorem acc_first (c : Dev nD) (t : Fin cfg2.N) (h0 : t.val % 4 = 0) (p q : Fin 1024) :
    (outsAt2 V c t.val t.isLt).2 (ix2 p q) = accK (arrA V c) (arrB V c) 0 (rowOf t.val p) (colOf t.val q) := by
  rw [outsAt2_A V c t h0]
  dsimp only
  rw [sA_eq]
  refine (PayVal.pay2_acc (k2_pay1 (F := Ideal)) (blkA V c t) (blkB V c t) p q).trans ?_
  rw [PayVal.pay2_zero, blocks_td V c t 0 (by omega) p q, accK_zero]

/-- After a later point it holds what the point before left plus the point's block product. -/
theorem acc_next (c : Dev nD) (t : Fin cfg2.N) (h0 : ¬t.val % 4 = 0) (p q : Fin 1024)
    (ih : ∀ p q : Fin 1024, (outsAt2 V c (t.val - 1) (Nat.lt_of_le_of_lt (Nat.sub_le _ _) t.isLt)).2 (ix2 p q)
      = accK (arrA V c) (arrB V c) ((t.val - 1) % 4) (rowOf (t.val - 1) p) (colOf (t.val - 1) q)) :
    (outsAt2 V c t.val t.isLt).2 (ix2 p q) = accK (arrA V c) (arrB V c) (t.val % 4) (rowOf t.val p) (colOf t.val q) := by
  have ht := lt512 t
  have e : t.val % 4 = (t.val - 1) % 4 + 1 := by omega
  have er : rowOf (t.val - 1) p = rowOf t.val p := Fin.ext (by show 1024 * (((t.val - 1) / 64) % 8) + p.val = 1024 * ((t.val / 64) % 8) + p.val; omega)
  have ec : colOf (t.val - 1) q = colOf t.val q := Fin.ext (by show 1024 * (((t.val - 1) / 4) % 16) + q.val = 1024 * ((t.val / 4) % 16) + q.val; omega)
  have key : ∀ xs : Vec Ideal S1024x1024 .f32, xs = (outsAt2 V c (t.val - 1) (Nat.lt_of_le_of_lt (Nat.sub_le _ _) t.isLt)).2 →
      k2_pay2 (F := Ideal) xs (iblk2 V c 0 t) (iblk2 V c 1 t) (ix2 p q)
        = accK (arrA V c) (arrB V c) (t.val % 4) (rowOf t.val p) (colOf t.val q) := by
    intro xs hxs
    refine (PayVal.pay2_acc xs (blkA V c t) (blkB V c t) p q).trans ?_
    rw [hxs, ih p q, er, ec, blocks_td V c t ((t.val - 1) % 4 + 1) (by omega) p q, e, accK_succ]
  by_cases h1 : t.val % 4 = 3
  · rw [outsAt2_C V c t h0 h1]
    dsimp only
    rw [sC_eq]
    exact key _ rfl
  · rw [outsAt2_B V c t h0 h1]
    dsimp only
    rw [sB_eq]
    exact key _ rfl

/-- THE INVARIANT: after position `n` the accumulator holds the sums up to `n`'s contraction block, at `n`'s tile. -/
theorem acc_inv (c : Dev nD) : ∀ (n : ℕ) (hn : n < cfg2.N) (p q : Fin 1024),
    (outsAt2 V c n hn).2 (ix2 p q) = accK (arrA V c) (arrB V c) (n % 4) (rowOf n p) (colOf n q) := by
  intro n
  induction n with
  | zero => intro hn p q; exact acc_first V c ⟨0, hn⟩ (Nat.zero_mod 4) p q
  | succ n ih =>
    intro hn p q
    by_cases h0 : (n + 1) % 4 = 0
    · have h := acc_first V c ⟨n + 1, hn⟩ h0 p q
      rw [h0]; exact h
    · exact acc_next V c ⟨n + 1, hn⟩ h0 p q (fun p q => ih (Nat.lt_of_succ_lt hn) p q)

/-- The four-block accumulation is the specification's, entry by entry. -/
theorem accK_three (A : ShL.Idx → EReal) (B : ShR.Idx → EReal) (i : Fin 8192) (j : Fin 16384) :
    accK A B 3 i j = (((0 + tileDot A B 0 i j) + tileDot A B 1 i j) + tileDot A B 2 i j) + tileDot A B 3 i j := rfl

/-- What a last point stores into the output's buffer: the tile of the rescaled product. -/
theorem out_last (c : Dev nD) (t : Fin cfg2.N) (h1 : t.val % 4 = 3) (p q : Fin 1024) :
    (outsAt2 V c t.val t.isLt).1 (ix2 p q)
      = tileOut (arrA V c) (arrB V c) (arrS V c) (arrR V c) (rowOf t.val p) (colOf t.val q) := by
  have ht := lt512 t
  have h0 : ¬t.val % 4 = 0 := by omega
  have hacc := acc_inv V c t.val t.isLt p q
  rw [outsAt2_C V c t h0 h1] at hacc ⊢
  dsimp only at hacc ⊢
  rw [sC_eq] at hacc
  rw [oC_eq]
  refine (PayVal.pay2_out (k2_pay2 (F := Ideal) _ (blkA V c t) (blkB V c t)) (blkS V c t) (blkR V c t) p q).trans ?_
  dsimp only [blkA, blkB, blkS, blkR]
  rw [hacc, h1, accK_three,
    iblk2_2_apply V c t (ix2 p (0 : Fin 1)) (ix2 (rowOf t.val p) (0 : Fin 1))
      (by show 1024 * ((t.val / 64) % 8) + p.val = 1024 * (t.val / 64) + p.val; omega),
    iblk2_3_apply V c t (ix2 (0 : Fin 1) q) (ix2 (0 : Fin 1) (colOf t.val q))
      (by show 1024 * ((t.val / 4) % 16) + q.val = 1024 * ((t.val / 4) % 16) + q.val; rfl)]
  unfold tileOut
  rfl

/-! ## From tiles to the array -/

/-- The result array as one function of the four arrays. -/
abbrev Gout (c : Dev nD) : S8192x16384.Idx → EReal :=
  fun i => tileOut (arrA V c) (arrB V c) (arrS V c) (arrR V c) (i 0) (i 1)

/-- What a flushing point writes back is its tile of `Gout`. -/
theorem flushed2_eq (c : Dev nD) (t : Fin cfg2.N) (hf : (cfg2.win 4).flush t = true) :
    (dat2 V c).flushed 4 t = ((cfg2.win 4).blk t).view.read (Elt Ideal) (Gout V c) := by
  have ht := lt512 t
  have h1 : t.val % 4 = 3 := (flush2_4 t).mp hf
  obtain ⟨-, -, -, -, -, -, -, -, e0, e1⟩ := idx2 t
  show (cfg2.win 4).cut (grid2.coords t) ((dat2 V c).after 4 t) = _
  rw [after2_4]
  funext j
  rw [View.read_apply]
  obtain ⟨p, q, rfl⟩ : ∃ (p q : Fin 1024), j = ix2 p q := ⟨j 0, j 1, eq_ix2 j⟩
  refine (out_last V c t h1 p q).trans ?_
  show tileOut _ _ _ _ _ _ = tileOut _ _ _ _ ((((cfg2.win 4).blk t).view.emb (ix2 p q)) 0) ((((cfg2.win 4).blk t).view.emb (ix2 p q)) 1)
  have r0 : (((cfg2.win 4).blk t).view.emb (ix2 p q)) 0 = rowOf t.val p :=
    Fin.ext (by show win2_4.index t 0 * 1024 + 1 * p.val = 1024 * ((t.val / 64) % 8) + p.val; rw [e0]; omega)
  have r1 : (((cfg2.win 4).blk t).view.emb (ix2 p q)) 1 = colOf t.val q :=
    Fin.ext (by show win2_4.index t 1 * 1024 + 1 * q.val = 1024 * ((t.val / 4) % 16) + q.val; rw [e1]; omega)
  rw [r0, r1]

/-- An index of the result array is in point `t`'s tile iff each coordinate is in the tile's range on its axis. -/
theorem mem_blk2 (t : Fin cfg2.N) (i : S8192x16384.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v2).slice (win2_4.rect t)).set ↔ _
  rw [View.set_slice_whole, Rect.mem_set_unit]
  exact Iff.rfl

/-- THE RESULT ARRAY after the run: the tiled, rescaled product of the arrays the region was entered with. -/
theorem final2 (c : Dev nD) : (dat2 V c).arrAt 4 cfg2.N = Gout V c :=
  (dat2 V c).arrAt_eq_of_cover 4 (Gout V c) (fun t hf => flushed2_eq V c t hf) fun i => by
    have hi0 : (i 0).val < 8192 := (i 0).isLt
    have hi1 : (i 1).val < 16384 := (i 1).isLt
    have hN : cfg2.N = 512 := N_2
    refine ⟨⟨64 * ((i 0).val / 1024) + 4 * ((i 1).val / 1024) + 3, by rw [hN]; omega⟩, (flush2_4 _).mpr (by show (64 * ((i 0).val / 1024) + 4 * ((i 1).val / 1024) + 3) % 4 = 3; omega), ?_⟩
    rw [mem_blk2]
    obtain ⟨-, -, -, -, -, -, -, -, e0, e1⟩ := idx2 ⟨64 * ((i 0).val / 1024) + 4 * ((i 1).val / 1024) + 3, by rw [hN]; omega⟩
    intro a
    match a with
    | ⟨0, _⟩ =>
      show win2_4.index _ 0 * 1024 ≤ (i 0).val ∧ (i 0).val < win2_4.index _ 0 * 1024 + 1024
      rw [e0]; show (64 * ((i 0).val / 1024) + 4 * ((i 1).val / 1024) + 3) / 64 * 1024 ≤ (i 0).val ∧ (i 0).val < (64 * ((i 0).val / 1024) + 4 * ((i 1).val / 1024) + 3) / 64 * 1024 + 1024
      omega
    | ⟨1, _⟩ =>
      show win2_4.index _ 1 * 1024 ≤ (i 1).val ∧ (i 1).val < win2_4.index _ 1 * 1024 + 1024
      rw [e1]; show (64 * ((i 0).val / 1024) + 4 * ((i 1).val / 1024) + 3) / 4 % 16 * 1024 ≤ (i 1).val ∧ (i 1).val < (64 * ((i 0).val / 1024) + 4 * ((i 1).val / 1024) + 3) / 4 % 16 * 1024 + 1024
      omega

end Ideal

end Cert.KernelIdeal.Hand

end
-- ==== Proof.KerValueAll.lean ====
/-
  The kernel's result as a function of its two arguments: the third region reads what the first two left — the
  quantised operands and their scales, each a function of one argument — and no region writes an argument, so the result
  array ends holding the specification's kernel arrangement of the launch contents of the two arguments.
-/
import proofs.«165695_j60069412602522_2_alg».proof.Proof.IFrameRun
import proofs.«165695_j60069412602522_2_alg».proof.Proof.KerValueL
import proofs.«165695_j60069412602522_2_alg».proof.Proof.KerValueR
import proofs.«165695_j60069412602522_2_alg».proof.Proof.KerValueD

noncomputable section

namespace Cert.KernelIdeal.Hand

open Cert.KernelIdeal Cert.KernelIdeal.Gen Cert.QuantDot
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The two arguments as launched. -/
abbrev lhsOf (c : Dev nD) : ShL.Idx → EReal := m ((c : Thread nD τ).loc main_arg0)
abbrev rhsOf (c : Dev nD) : ShR.Idx → EReal := m ((c : Thread nD τ).loc main_arg1)

/-- The first region finds the left argument as launched; the second finds the right argument as launched (the first
    region does not write it). -/
theorem V0_lhs (c : Dev nD) : (V0 m ρ c main_arg0 : ShL.Idx → EReal) = lhsOf m c := rfl
theorem V1_rhs (c : Dev nD) : (V1 m ρ c main_arg1 : ShR.Idx → EReal) = rhsOf m c :=
  (W1_of_ne m ρ c main_arg1 (by decide)).trans rfl

/-- The third region finds the quantised left operand and its scales as the first region left them (the second does
    not write them), -/
theorem V2_qL (c : Dev nD) : (V2 m ρ c main_v0_0 : ShL.Idx → EReal) = fun x => qL (lhsOf m c) (x 0) (x 1) :=
  (W2_of_ne m ρ c main_v0_0 (by decide)).trans ((W1_arr m ρ c 1).trans (final0_q (V0 m ρ) c))
theorem V2_sL (c : Dev nD) : (V2 m ρ c main_v0_1 : ShSL.Idx → EReal) = fun x => sL (lhsOf m c) (x 0) :=
  (W2_of_ne m ρ c main_v0_1 (by decide)).trans ((W1_arr m ρ c 2).trans (final0_s (V0 m ρ) c))
/-- and the quantised right operand and its scales as the second region left them. -/
theorem V2_qR (c : Dev nD) : (V2 m ρ c main_v1_0 : ShR.Idx → EReal) = fun x => qR (rhsOf m c) (x 0) (x 1) := by
  refine (W2_arr m ρ c 1).trans ((final1_q (V1 m ρ) c).trans ?_)
  rw [V1_rhs]
theorem V2_sR (c : Dev nD) : (V2 m ρ c main_v1_1 : ShSR.Idx → EReal) = fun x => sR (rhsOf m c) (x 1) := by
  refine (W2_arr m ρ c 2).trans ((final1_s (V1 m ρ) c).trans ?_)
  rw [V1_rhs]

/-- THE KERNEL'S VALUE: the result array after the run is the kernel arrangement of the two arguments. -/
theorem kernel_value (c : Dev nD) :
    (dat2 (V2 m ρ) c).arrAt 4 cfg2.N = fun i => kerOut (lhsOf m c) (rhsOf m c) (i 0) (i 1) := by
  rw [final2 (V2 m ρ) c]
  funext i
  show tileOut (V2 m ρ c main_v0_0) (V2 m ρ c main_v1_0) (V2 m ρ c main_v0_1) (V2 m ρ c main_v1_1) (i 0) (i 1) = _
  rw [V2_qL, V2_qR, V2_sL, V2_sR]
  exact tileOut_quant _ _ _ _

end Cert.KernelIdeal.Hand

end
-- ==== Proof.LibHostLastMax.lean ====
/-
  The host's maximum over the LAST axis, read at an index, on the extended reals: for an `[a, b]` array at row `r`, and
  for an `[a, b, c]` array at `(p, q)`, it is the fold of `max` from the initial value over the last coordinate.
-/
import Idealize.ShloMosaic.Lib.ValueIdx
import Idealize.ShloMosaic.PureOps.Ideal.Laws

noncomputable section

namespace Idealize.ShloMosaic.HostLastMax

open Idealize.ShloMosaic Idealize.ShloMosaic.ValueIdx

variable {a b c : ℕ}

/-- The host's maximum of an `[a, b]` array over its last axis from an initial value, at row `r`. -/
theorem apply2 {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun k => ?_)
  exact congrArg x (funext fun ax => Fin.ext (by
    match ax with
    | ⟨0, _⟩ => rfl
    | ⟨1, _⟩ => rfl))

/-- The host's maximum of an `[a, b, c]` array over its last axis from an initial value, at `(p, q)`. -/
theorem apply3 {u : Shape} (x : FVec Ideal ⟨3, ![a, b, c]⟩ .f32) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  refine congrArg (fun f => (Finset.univ : Finset (Fin c)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.HostLastMax

end
-- ==== Proof.LibHostFirstMax.lean ====
/-
  The host's maximum over the FIRST axis of an `[a, b]` array, read at an index, on the extended reals: at column `c` it
  is the fold of `max` from the initial value over the first coordinate.
-/
import Idealize.ShloMosaic.Lib.ValueIdx
import Idealize.ShloMosaic.PureOps.Ideal.Laws

noncomputable section

namespace Idealize.ShloMosaic.HostFirstMax

open Idealize.ShloMosaic Idealize.ShloMosaic.ValueIdx

variable {a b : ℕ}

/-- The host's maximum of an `[a, b]` array over its first axis from an initial value, at column `c`. -/
theorem apply2 {u : Shape} (x : FVec Ideal ⟨2, ![a, b]⟩ .f32) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = (Finset.univ : Finset (Fin a)).fold max (init (Shape.Idx.first hu)) (fun k => x (ix2 k c)) := by
  refine (Host.reduce_eq_fold_single (FloatOps.maximumf (F := Ideal) (φ := .f32)) x init h' h hu (ix1 c)).trans ?_
  refine congrArg (fun f => (Finset.univ : Finset (Fin a)).fold max (init (Shape.Idx.first hu)) f) (funext fun k => ?_)
  exact congrArg x (funext fun ax => Fin.ext (by
    match ax with
    | ⟨0, _⟩ => rfl
    | ⟨1, _⟩ => rfl))

end Idealize.ShloMosaic.HostFirstMax

end
-- ==== Proof.RefValue.lean ====
/-
  The reference program's result, read entry by entry: the product of the two de-quantised matrices.

  The reference quantises each operand along one axis and multiplies the de-quantised matrices.  Read at an index:
  the maximum of `|x|` over a row of the left operand (over a column of the right operand) is the fold of `max` from
  `−∞` over that row (column); kept as a unit axis and compared with zero, divided by 127 or replaced by one, it is the
  row's (column's) scale; an entry divided by its scale, clamped to `[−127, 127]`, rounded to nearest-even and
  multiplied by the scale again is the de-quantised entry; and the product's entry `(p, q)` is the sum over the
  contracted axis of the products of the de-quantised entries of row `p` and column `q`.
-/
import proofs.«165695_j60069412602522_2_alg».proof.Proof.Gen.ReferenceIdeal.Read
import proofs.«165695_j60069412602522_2_alg».proof.Proof.Spec
import proofs.«165695_j60069412602522_2_alg».proof.Proof.LibHostLastMax
import proofs.«165695_j60069412602522_2_alg».proof.Proof.LibHostFirstMax

noncomputable section

namespace Cert.ReferenceIdeal.RefValue

open Cert.ReferenceIdeal Cert.ReferenceIdeal.Gen Cert.ReferenceIdeal.Read Idealize.ShloMosaic
  Idealize.ShloMosaic.ValueIdx Cert.QuantDot

/-- The binary32 word of `−∞` denotes `⊥`. -/
theorem ofBits_neg_inf : Ideal.ofBits .f32 0xFF800000#32 = (⊥ : EReal) := by
  simp [Ideal.ofBits, Ideal.ieee]

/-- The maximum of `|x|` over row `p` of the left operand. -/
theorem rowAmax (x0 : (⟨S8192x4096, .f32⟩ : BufTy).Contents (Elt Ideal)) (p : Fin 8192) :
    val_main_v1 (F := Ideal) x0 (ix1 p) = amaxOf fun k : Fin 4096 => x0 (ix2 p k) := by
  unfold val_main_v1
  refine (HostLastMax.apply2 (val_main_v0 (F := Ideal) x0) (val_main_cst (F := Ideal))
    reducesTo_S8192x4096_S8192_d1 (by decide) h_S_ p).trans ?_
  rw [val_main_cst_apply]
  show Finset.fold max (Ideal.ofBits .f32 0xFF800000#32) _ _ = _
  rw [ofBits_neg_inf]
  rfl

/-- The maximum of `|x|` over column `q` of the right operand. -/
theorem colAmax (x1 : (⟨S4096x16384, .f32⟩ : BufTy).Contents (Elt Ideal)) (q : Fin 16384) :
    val_main_v16 (F := Ideal) x1 (ix1 q) = amaxOf fun k : Fin 4096 => x1 (ix2 k q) := by
  unfold val_main_v16
  refine (HostFirstMax.apply2 (val_main_v15 (F := Ideal) x1) (val_main_cst_5 (F := Ideal))
    reducesTo_S4096x16384_S16384_d0 (by decide) h_S_ q).trans ?_
  rw [val_main_cst_5_apply]
  show Finset.fold max (Ideal.ofBits .f32 0xFF800000#32) _ _ = _
  rw [ofBits_neg_inf]
  rfl

/-- Row `p`'s scale, as the reference keeps it in a column of unit width. -/
theorem rowScale (x0 : (⟨S8192x4096, .f32⟩ : BufTy).Contents (Elt Ideal)) (p : Fin 8192) (u : Fin 1) :
    val_main_v8 (F := Ideal) x0 (ix2 p u) = sL x0 p := by
  have e2 : idx_main_v2 (ix2 p u) = ix1 p := funext fun a => Fin.ext (by match a with | ⟨0, _⟩ => rfl)
  rw [val_main_v8_apply, val_main_v4_apply, val_main_v6_apply, val_main_v2_apply, e2, rowAmax, val_main_v3_apply,
    val_main_v5_apply, val_main_v7_apply, val_main_cst_0_apply, val_main_cst_1_apply, val_main_cst_2_apply]
  rfl

/-- Column `q`'s scale, as the reference keeps it in a row of unit height. -/
theorem colScale (x1 : (⟨S4096x16384, .f32⟩ : BufTy).Contents (Elt Ideal)) (u : Fin 1) (q : Fin 16384) :
    val_main_v23 (F := Ideal) x1 (ix2 u q) = sR x1 q := by
  have e17 : idx_main_v17 (ix2 u q) = ix1 q := funext fun a => Fin.ext (by match a with | ⟨0, _⟩ => rfl)
  rw [val_main_v23_apply, val_main_v19_apply, val_main_v21_apply, val_main_v17_apply, e17, colAmax,
    val_main_v18_apply, val_main_v20_apply, val_main_v22_apply, val_main_cst_6_apply, val_main_cst_7_apply,
    val_main_cst_8_apply]
  rfl

/-- The de-quantised entry `(p, k)` of the left operand. -/
theorem lhsDeq (x0 : (⟨S8192x4096, .f32⟩ : BufTy).Contents (Elt Ideal)) (p : Fin 8192) (k : Fin 4096) :
    val_main_v14 (F := Ideal) x0 (ix2 p k) = qL x0 p k * sL x0 p := by
  have e9 : idx_main_v9 (ix2 p k) = ix2 p (0 : Fin 1) := funext fun a => Fin.ext (by
    match a with
    | ⟨0, _⟩ => rfl
    | ⟨1, _⟩ => rfl)
  have e13 : idx_main_v13 (ix2 p k) = ix2 p (0 : Fin 1) := funext fun a => Fin.ext (by
    match a with
    | ⟨0, _⟩ => rfl
    | ⟨1, _⟩ => rfl)
  rw [val_main_v14_apply, val_main_v12_apply, val_main_v13_apply, e13, rowScale, val_main_v11_apply,
    val_main_call1_v4_apply, val_main_call1_v3_apply, val_main_cst_4_apply, val_main_call1_v2_apply,
    val_main_call1_v1_apply, val_main_call1_v0_apply, val_main_cst_3_apply, val_main_v10_apply, val_main_v9_apply, e9,
    rowScale]
  rfl

/-- The de-quantised entry `(k, q)` of the right operand. -/
theorem rhsDeq (x1 : (⟨S4096x16384, .f32⟩ : BufTy).Contents (Elt Ideal)) (k : Fin 4096) (q : Fin 16384) :
    val_main_v29 (F := Ideal) x1 (ix2 k q) = qR x1 k q * sR x1 q := by
  have e24 : idx_main_v24 (ix2 k q) = ix2 (0 : Fin 1) q := funext fun a => Fin.ext (by
    match a with
    | ⟨0, _⟩ => rfl
    | ⟨1, _⟩ => rfl)
  have e28 : idx_main_v28 (ix2 k q) = ix2 (0 : Fin 1) q := funext fun a => Fin.ext (by
    match a with
    | ⟨0, _⟩ => rfl
    | ⟨1, _⟩ => rfl)
  rw [val_main_v29_apply, val_main_v27_apply, val_main_v28_apply, e28, colScale, val_main_v26_apply,
    val_main_call4_v4_apply, val_main_call4_v3_apply, val_main_cst_10_apply, val_main_call4_v2_apply,
    val_main_call4_v1_apply, val_main_call4_v0_apply, val_main_cst_9_apply, val_main_v25_apply, val_main_v24_apply,
    e24, colScale]
  rfl

/-- The reference's result at entry `(p, q)`. -/
theorem val_main_v30_ix2 (x0 : (⟨S8192x4096, .f32⟩ : BufTy).Contents (Elt Ideal))
    (x1 : (⟨S4096x16384, .f32⟩ : BufTy).Contents (Elt Ideal)) (p : Fin 8192) (q : Fin 16384) :
    val_main_v30 (F := Ideal) x0 x1 (ix2 p q) = refOut x0 x1 p q := by
  rw [val_main_v30_apply]
  unfold refOut
  refine Finset.sum_congr rfl fun k _ => ?_
  have el : lidx_main_v30 (ix2 p q) k = ix2 p k := funext fun a => Fin.ext (by
    match a with
    | ⟨0, _⟩ => rfl
    | ⟨1, _⟩ => rfl)
  have er : ridx_main_v30 (ix2 p q) k = ix2 k q := funext fun a => Fin.ext (by
    match a with
    | ⟨0, _⟩ => rfl
    | ⟨1, _⟩ => rfl)
  rw [el, er, lhsDeq, rhsDeq]

/-- The reference's result, as a function of the two argument arrays, is the product of the de-quantised matrices. -/
theorem val_main_v30_eq_refOut (x0 : (⟨S8192x4096, .f32⟩ : BufTy).Contents (Elt Ideal))
    (x1 : (⟨S4096x16384, .f32⟩ : BufTy).Contents (Elt Ideal)) :
    val_main_v30 (F := Ideal) x0 x1 = fun i => refOut x0 x1 (i 0) (i 1) := by
  funext i
  obtain ⟨p, q, rfl⟩ : ∃ (p : Fin 8192) (q : Fin 16384), i = ix2 p q := ⟨i 0, i 1, eq_ix2 i⟩
  exact val_main_v30_ix2 x0 x1 p q

open Idealize.ShloMosaic.TcCoe Idealize.SL.Sem in
/-- The reference's run, with its result stated as the product of the de-quantised matrices of the launch contents of
    the two arguments, and the arguments unchanged. -/
theorem run_refOut (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
          = (fun i => refOut (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v30_eq _ _).trans (val_main_v30_eq_refOut _ _)), (h c).2⟩)
    (Cert.ReferenceIdeal.Value.run (F := Ideal) m ρ)

end Cert.ReferenceIdeal.RefValue

end
-- ==== Proof.LibBlockSum.lean ====
/-
  A sum over 4096 positions, taken block by block.

  Cut `a · b` positions into `a` consecutive blocks of `b`: position `k · b + j` is position `j` of block `k`, and every
  position is of that form exactly once.  So the sum over all positions is the sum over the blocks of each block's sum.
  Stated in general, then for four blocks of 1024, also in the left-nested form an accumulation from zero produces.
-/
import Mathlib.Algebra.BigOperators.Fin
import Mathlib.Logic.Equiv.Fin.Basic

namespace Cert.LibBlockSum

open scoped BigOperators

/-- Position `j` of block `k` is a position of the whole. -/
theorem block_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- The sum over `a · b` positions is the sum over the `a` blocks of the sum over each block's `b` positions. -/
theorem sum_fin_blocks {M : Type*} [AddCommMonoid M] (a b : ℕ) (f : Fin (a * b) → M) :
    ∑ k : Fin a, ∑ j : Fin b, f ⟨k.val * b + j.val, block_lt k j⟩ = ∑ t : Fin (a * b), f t := by
  rw [← Fintype.sum_prod_type (f := fun x : Fin a × Fin b => f ⟨x.1.val * b + x.2.val, block_lt x.1 x.2⟩)]
  refine Fintype.sum_equiv finProdFinEquiv _ _ fun x => congrArg f (Fin.ext ?_)
  show x.1.val * b + x.2.val = x.2.val + b * x.1.val
  rw [Nat.mul_comm, Nat.add_comm]

/-- Four blocks of 1024: the sum over 4096 positions is the sum of the four block sums. -/
theorem sum_four_blocks {M : Type*} [AddCommMonoid M] (f : Fin 4096 → M) :
    ∑ k : Fin 4, ∑ j : Fin 1024, f ⟨k.val * 1024 + j.val, by omega⟩ = ∑ t : Fin 4096, f t :=
  sum_fin_blocks 4 1024 f

/-- The same, as an accumulation from zero adds the four block sums one after the other. -/
theorem sum_four_blocks_acc {M : Type*} [AddCommMonoid M] (f : Fin 4096 → M) :
    ((((0 + ∑ j : Fin 1024, f ⟨0 * 1024 + j.val, by omega⟩) + ∑ j : Fin 1024, f ⟨1 * 1024 + j.val, by omega⟩)
        + ∑ j : Fin 1024, f ⟨2 * 1024 + j.val, by omega⟩) + ∑ j : Fin 1024, f ⟨3 * 1024 + j.val, by omega⟩)
      = ∑ t : Fin 4096, f t := by
  rw [← sum_four_blocks f, Fin.sum_univ_four, zero_add]
  rfl

end Cert.LibBlockSum
-- ==== Proof.LibDegreeWeight.lean ====
/-
  The two facts about extended reals that join the two arrangements of a degree-normalised neighbourhood sum.

  With `δ = where(deg > 0, deg^(-1/2), 0)` the weight of a node, one program scales every message by the product
  `δ(src) · δ(dst)` before summing the messages of a destination, the other scales messages by `δ(src)` only and
  multiplies the destination's sum by `δ(dst)` afterwards.  Multiplication distributes over a sum of extended reals
  when the factor is nonnegative and finite — whatever the summands are, infinities of both signs included — and the
  weight `δ` is nonnegative and finite for every extended real `deg`.
-/
import Idealize.ShloMosaic.PureOps.Ideal
import Idealize.ShloMosaic.PureOps.Ideal.Laws

noncomputable section

namespace Idealize.ShloMosaic.DegreeWeight

open Idealize.ShloMosaic

/-- The weight `where(x > 0, x^(-1/2), 0)` is nonnegative and finite, for every extended real `x`: at `⊥` and at a
    real `x ≤ 0` it is `0`, at `⊤` it is `⊤^(-1/2) = 0`, at a real `x > 0` it is the real `(√x)⁻¹`. -/
theorem weight_nonneg_ne_top (x : EReal) :
    0 ≤ Scalar.select (Ideal.cmp .ogt x 0) (Ideal.rsqrt x) 0
      ∧ Scalar.select (Ideal.cmp .ogt x 0) (Ideal.rsqrt x) 0 ≠ ⊤ := by
  unfold Scalar.select Ideal.cmp
  induction x using EReal.rec with
  | bot => simp
  | top => simp [Ideal.rsqrt_top]
  | coe r =>
    by_cases hr : 0 < r
    · have h1 : ((0 : EReal) < (r : EReal)) := by exact_mod_cast hr
      have h2 : ¬ r < 0 := not_lt.mpr hr.le
      have h3 : r ≠ 0 := hr.ne'
      simp only [h1, decide_true, BitVec.ofBool_true, if_true, Ideal.rsqrt_coe, h2, h3, if_false]
      refine ⟨?_, EReal.coe_ne_top _⟩
      exact_mod_cast inv_nonneg.mpr (Real.sqrt_nonneg r)
    · have h1 : ¬ ((0 : EReal) < (r : EReal)) := by exact_mod_cast hr
      simp [h1]

/-- A nonnegative finite factor distributes over a finite sum of extended reals. -/
theorem mul_sum {ι : Type*} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- Scaling a destination's sum of source-weighted messages by the destination's weight `a`, and adding the bias,
    is summing the messages weighted by the product of the two weights: `v j` is message `j`'s payload, `w j` its
    source's weight and `wd j` its destination's weight, which is `a` for every message of this destination. -/
theorem scaled_sum_eq {ι : Type*} (s : Finset ι) (a : EReal) (h0 : 0 ≤ a) (ht : a ≠ ⊤) (v w wd : ι → EReal)
    (hwd : ∀ j ∈ s, wd j = a) (b : EReal) :
    a * (0 + ∑ j ∈ s, v j * w j) + b = (0 + ∑ j ∈ s, (w j * wd j) * v j) + b := by
  rw [zero_add, zero_add, mul_sum s a h0 ht]
  congr 1
  refine Finset.sum_congr rfl fun j hj => ?_
  rw [hwd j hj, mul_comm (w j) a, mul_assoc, mul_comm (w j) (v j)]

end Idealize.ShloMosaic.DegreeWeight

end
-- ==== Proof.LibRealEntries.lean ====
/-
  Extended reals that are real numbers, and the log-softmax rearrangement among them.

  An extended real is "real" when it is the image of a real number. Reals are closed under addition, subtraction,
  multiplication, the larger of two, and finite sums; the largest entry of a nonempty finite family of reals (the fold of
  `max` from `−∞`) is real and bounds every entry; the exponential of a real is a positive real, a nonempty finite
  sum of positive reals is a positive real, and the logarithm of a positive real is real.

  The rearrangement: for a nonempty finite family `z` of reals with largest entry `m` and
  `S = Σ_k exp (z k − m)`, `z c − (log S + m) = (z c − m) − log S`. On the extended reals subtraction does not
  distribute over a sum at the infinities; among reals both sides are the real number `z c − m − log S`.
-/
import Idealize.ShloMosaic.PureOps.Ideal.Laws

noncomputable section

namespace Idealize.ShloMosaic.RealEntries

open scoped BigOperators

/-- An extended real that is (the image of) a real number. -/
def IsReal (a : EReal) : Prop := ∃ r : ℝ, a = (r : EReal)

/-- An extended real that is a positive real number. -/
def IsPosReal (a : EReal) : Prop := ∃ r : ℝ, 0 < r ∧ a = (r : EReal)

theorem isReal_coe (r : ℝ) : IsReal (r : EReal) := ⟨r, rfl⟩

theorem isReal_zero : IsReal 0 := ⟨0, rfl⟩

theorem isReal_iff {a : EReal} : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

theorem IsPosReal.isReal {a : EReal} (h : IsPosReal a) : IsReal a := by
  obtain ⟨r, _, rfl⟩ := h
  exact ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The embedding of the reals carries the larger of two reals to the larger of their images. -/
theorem coe_max (r s : ℝ) : ((max r s : ℝ) : EReal) = max (r : EReal) (s : EReal) :=
  (EReal.coe_strictMono.monotone).map_max

theorem IsReal.max {a b : EReal} (ha : IsReal a) (hb : IsReal b) : IsReal (max a b) := by
  obtain ⟨r, rfl⟩ := ha
  obtain ⟨s, rfl⟩ := hb
  exact ⟨Max.max r s, (coe_max r s).symm⟩

/-- The embedding of the reals carries a finite sum to the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite index type is real. -/
theorem isReal_sum_univ {ι : Type*} [Fintype ι] (f : ι → EReal) (h : ∀ k, IsReal (f k)) : IsReal (∑ k, f k) :=
  isReal_sum Finset.univ f fun k _ => h k

/-- A nonempty finite sum of positive reals is a positive real. -/
theorem isPosReal_sum {ι : Type*} (s : Finset ι) (hs : s.Nonempty) (f : ι → EReal) (h : ∀ k ∈ s, IsPosReal (f k)) :
    IsPosReal (∑ k ∈ s, f k) := by
  classical
  have hg : ∀ k : ι, ∃ r : ℝ, k ∈ s → (0 < r ∧ f k = (r : EReal)) := fun k => by
    by_cases hk : k ∈ s
    · obtain ⟨r, hr, e⟩ := h k hk
      exact ⟨r, fun _ => ⟨hr, e⟩⟩
    · exact ⟨0, fun hk' => absurd hk' hk⟩
  choose g hg using hg
  refine ⟨∑ k ∈ s, g k, Finset.sum_pos (fun k hk => (hg k hk).1) hs, ?_⟩
  rw [coe_sum]
  exact Finset.sum_congr rfl fun k hk => (hg k hk).2

/-- Every entry is at most the fold of `max` from `−∞`. -/
theorem le_foldMax {ι : Type*} [Fintype ι] (z : ι → EReal) (c : ι) :
    z c ≤ (Finset.univ : Finset ι).fold max ⊥ z :=
  (Finset.le_fold_max _).mpr (Or.inr ⟨c, Finset.mem_univ c, le_refl _⟩)

/-- The fold of `max` from `−∞` over a nonempty finite family of reals is real. -/
theorem isReal_foldMax {ι : Type*} [Fintype ι] [Nonempty ι] (z : ι → EReal) (h : ∀ k, IsReal (z k)) :
    IsReal ((Finset.univ : Finset ι).fold max ⊥ z) := by
  refine isReal_iff.mpr ⟨?_, ?_⟩
  · refine ne_of_lt ((Finset.fold_max_lt _).mpr ⟨bot_lt_top, fun k _ => ?_⟩)
    obtain ⟨r, hr⟩ := h k
    rw [hr]
    exact EReal.coe_lt_top r
  · obtain ⟨c⟩ := ‹Nonempty ι›
    obtain ⟨r, hr⟩ := h c
    refine ne_of_gt (lt_of_lt_of_le ?_ (le_foldMax z c))
    rw [hr]
    exact EReal.bot_lt_coe r

/-- The exponential of a real is a positive real. -/
theorem IsReal.exp_isPosReal {a : EReal} (ha : IsReal a) : IsPosReal (Ideal.exp a) := by
  obtain ⟨r, rfl⟩ := ha
  exact ⟨Real.exp r, Real.exp_pos r, rfl⟩

/-- The logarithm of a positive real is real. -/
theorem IsPosReal.log_isReal {a : EReal} (ha : IsPosReal a) : IsReal (Ideal.log a) := by
  obtain ⟨r, hr, rfl⟩ := ha
  refine ⟨Real.log r, ?_⟩
  rw [Ideal.log_coe, if_neg (not_le.mpr hr)]

/-- Among reals, subtracting a sum is subtracting its terms one after the other (in either order). -/
theorem IsReal.sub_add {a l m : EReal} (ha : IsReal a) (hl : IsReal l) (hm : IsReal m) :
    a - (l + m) = (a - m) - l := by
  obtain ⟨r, rfl⟩ := ha
  obtain ⟨s, rfl⟩ := hl
  obtain ⟨t, rfl⟩ := hm
  rw [← EReal.coe_add, ← EReal.coe_sub, ← EReal.coe_sub, ← EReal.coe_sub]
  exact congrArg _ (by ring)

/-- The shifted exponential sum of a nonempty finite family of reals is a positive real. -/
theorem isPosReal_expSum {ι : Type*} [Fintype ι] [Nonempty ι] (z : ι → EReal) (h : ∀ k, IsReal (z k)) :
    IsPosReal (∑ k, Ideal.exp (z k - (Finset.univ : Finset ι).fold max ⊥ z)) :=
  isPosReal_sum Finset.univ Finset.univ_nonempty _ fun k _ => ((h k).sub (isReal_foldMax z h)).exp_isPosReal

/-- The log-softmax rearrangement among reals: subtracting "log-sum-exp plus the largest entry" from an entry is
    subtracting the largest entry and then the log-sum-exp. -/
theorem sub_logSumExp_add_top {ι : Type*} [Fintype ι] [Nonempty ι] (z : ι → EReal) (h : ∀ k, IsReal (z k)) (c : ι) :
    z c - (Ideal.log (∑ k, Ideal.exp (z k - (Finset.univ : Finset ι).fold max ⊥ z))
            + (Finset.univ : Finset ι).fold max ⊥ z)
      = (z c - (Finset.univ : Finset ι).fold max ⊥ z)
          - Ideal.log (∑ k, Ideal.exp (z k - (Finset.univ : Finset ι).fold max ⊥ z)) :=
  (h c).sub_add (isPosReal_expSum z h).log_isReal (isReal_foldMax z h)

end Idealize.ShloMosaic.RealEntries

end
-- ==== Proof.Algebra.lean ====
/-
  The two arrangements of the quantised product agree when every entry of both matrices is a real number.

  With real entries the largest absolute value of a row or column (the fold of `max` from `−∞` over a nonempty
  family of reals) is a real number, so its scale — `amax / 127` when `amax > 0`, else `1` — is a positive real:
  nonnegative and not `+∞`.  Such a factor distributes over a finite sum of extended reals, whatever the summands
  are; multiplication of extended reals is commutative and associative; and the four block sums added one after the
  other from zero are the sum over all 4096 positions of the contracted axis.  Hence
  `(∑ t, qL i t · qR t j) · sL i · sR j = ∑ t, (qL i t · sL i) · (qR t j · sR j)`.
-/
import proofs.«165695_j60069412602522_2_alg».proof.Proof.Spec
import proofs.«165695_j60069412602522_2_alg».proof.Proof.LibBlockSum
import proofs.«165695_j60069412602522_2_alg».proof.Proof.LibDegreeWeight
import proofs.«165695_j60069412602522_2_alg».proof.Proof.LibRealEntries

noncomputable section

namespace Cert.QuantDot

open Idealize.ShloMosaic Idealize.ShloMosaic.ValueIdx Idealize.ShloMosaic.RealEntries

/-- The word `0x42FE0000` denotes `127`. -/
theorem c127_eq : c127 = ((127 : ℝ) : EReal) := by
  simp [c127, Ideal.ofBits, Ideal.ieee]
  norm_cast
  norm_num

/-- The word `0x3F800000` denotes `1`. -/
theorem cOne_eq : cOne = ((1 : ℝ) : EReal) := by
  simp [cOne, Ideal.ofBits, Ideal.ieee]
  norm_cast
  norm_num

/-- The zero word denotes `0`. -/
theorem cZero_eq : cZero = 0 := Ideal.ofBits_zero_f32

/-- The scale made from a real number is a positive real: `a / 127` when `a > 0`, else `1`. -/
theorem scaleOf_coe (a : ℝ) : ∃ s : ℝ, 0 < s ∧ scaleOf (a : EReal) = (s : EReal) := by
  unfold scaleOf Scalar.select Ideal.cmp
  rw [cZero_eq, c127_eq, cOne_eq]
  by_cases h : (0 : ℝ) < a
  · have h1 : ((0 : EReal) < (a : EReal)) := by exact_mod_cast h
    refine ⟨a * (1 / 127), by positivity, ?_⟩
    simp only [h1, decide_true, BitVec.ofBool_true, if_true]
    rw [Ideal.div_coe (by norm_num : (127 : ℝ) ≠ 0), ← EReal.coe_mul]
  · have h1 : ¬ ((0 : EReal) < (a : EReal)) := by exact_mod_cast h
    refine ⟨1, one_pos, ?_⟩
    simp [h1]

/-- The largest absolute value of a nonempty finite family of reals is a real number. -/
theorem amaxOf_real {n : ℕ} [Nonempty (Fin n)] (f : Fin n → EReal) (h : ∀ k, ∃ r : ℝ, f k = (r : EReal)) :
    ∃ a : ℝ, amaxOf f = (a : EReal) := by
  unfold amaxOf
  refine isReal_foldMax (fun k => max (f k) (-(f k))) fun k => ?_
  obtain ⟨r, hr⟩ := h k
  refine IsReal.max ⟨r, hr⟩ ⟨-r, ?_⟩
  rw [hr, EReal.coe_neg]

/-- A row's scale is a positive real when the left operand's entries are real. -/
theorem sL_pos (lhs : ShL.Idx → EReal) (hl : ∀ i, ∃ r : ℝ, lhs i = (r : EReal)) (i : Fin 8192) :
    ∃ s : ℝ, 0 < s ∧ sL lhs i = (s : EReal) := by
  haveI : Nonempty (Fin 4096) := ⟨0⟩
  unfold sL
  obtain ⟨a, ha⟩ := amaxOf_real (fun k : Fin 4096 => lhs (ix2 i k)) fun k => hl _
  rw [ha]
  exact scaleOf_coe a

/-- A column's scale is a positive real when the right operand's entries are real. -/
theorem sR_pos (rhs : ShR.Idx → EReal) (hr : ∀ i, ∃ r : ℝ, rhs i = (r : EReal)) (j : Fin 16384) :
    ∃ s : ℝ, 0 < s ∧ sR rhs j = (s : EReal) := by
  haveI : Nonempty (Fin 4096) := ⟨0⟩
  unfold sR
  obtain ⟨a, ha⟩ := amaxOf_real (fun k : Fin 4096 => rhs (ix2 k j)) fun k => hr _
  rw [ha]
  exact scaleOf_coe a

/-- With real entries the kernel's arrangement — four block products added from zero, then the two rescalings — is
    the reference's: the sum over the contracted axis of the products of the de-quantised entries. -/
theorem kerOut_eq_refOut (lhs : ShL.Idx → EReal) (rhs : ShR.Idx → EReal)
    (hl : ∀ i, ∃ r : ℝ, lhs i = (r : EReal)) (hr : ∀ i, ∃ r : ℝ, rhs i = (r : EReal))
    (i : Fin 8192) (j : Fin 16384) : kerOut lhs rhs i j = refOut lhs rhs i j := by
  obtain ⟨s, hs, es⟩ := sL_pos lhs hl i
  obtain ⟨t, ht, et⟩ := sR_pos rhs hr j
  have ha0 : (0 : EReal) ≤ sL lhs i := by rw [es]; exact_mod_cast hs.le
  have hat : sL lhs i ≠ ⊤ := by rw [es]; exact EReal.coe_ne_top _
  have hb0 : (0 : EReal) ≤ sR rhs j := by rw [et]; exact_mod_cast ht.le
  have hbt : sR rhs j ≠ ⊤ := by rw [et]; exact EReal.coe_ne_top _
  have h4 : ((((0 + blockDot lhs rhs 0 i j) + blockDot lhs rhs 1 i j) + blockDot lhs rhs 2 i j)
      + blockDot lhs rhs 3 i j) = ∑ u : Fin 4096, qL lhs i u * qR rhs u j :=
    Cert.LibBlockSum.sum_four_blocks_acc fun u => qL lhs i u * qR rhs u j
  unfold kerOut refOut
  rw [h4, mul_comm _ (sL lhs i), DegreeWeight.mul_sum _ _ ha0 hat, mul_comm _ (sR rhs j),
    DegreeWeight.mul_sum _ _ hb0 hbt]
  refine Finset.sum_congr rfl fun u _ => ?_
  ac_rfl

end Cert.QuantDot

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.Finite.lean ====
/-
  The precondition read back: both argument arrays hold real numbers only.

  The precondition is the conjunction of two tests, one per argument: "every entry's absolute value is below `+∞`".
  A conjunction of one-bit scalars that is `1` has both conjuncts `1`; a test that is `1` says that every entry of its
  argument has `max x (−x) < ⊤`, and an extended real with that property is (the image of) a real number.
-/
import proofs.«165695_j60069412602522_2_alg».proof.Pre_finite_inputs
import proofs.«165695_j60069412602522_2_alg».proof.Proof.LibFiniteEntries

noncomputable section

namespace Cert.QuantDot

open Idealize.ShloMosaic Idealize.ShloMosaic.ValueIdx Cert.Pre_finite_inputs

/-- If the precondition holds of the contents `a0`, `a1` of the two argument arrays, every entry of both is a real
    number. -/
theorem entries_real_of_pre [Cert.Pre_finite_inputs.Facts]
    (a0 : FVec Ideal Cert.Pre_finite_inputs.S8192x4096 .f32) (a1 : FVec Ideal Cert.Pre_finite_inputs.S4096x16384 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := FiniteEntries.and_split h0
  exact ⟨FiniteEntries.entries_real a0 _ _ _ h1, FiniteEntries.entries_real a1 _ _ _ h2⟩

end Cert.QuantDot

end
-- ==== Proof.lean ====
/-
  The certificate of a symmetric 8-bit fake-quantised matrix product: a kernel program of three regions (quantise the
  left operand by rows, quantise the right operand by columns, multiply the quantised operands tile by tile with the
  accumulator kept between grid points and rescale at the end) against the plain product of the two de-quantised
  matrices.

  Frames: the kernel's program, read word by word and read on the extended reals, runs to the end with its arguments
  unchanged (the three regions' runs chained); the reference's run is the composition of its host operations.
  Idealisation: the ideal reading rewrote nothing. Value: on the extended reals the kernel's result is
  `(((0 + d₀) + d₁) + d₂) + d₃` rescaled by the row's and the column's scale, with `d_b` the block products of the
  quantised operands; the reference's is `∑ t, (qL i t · sL i) · (qR t j · sR j)`. With finite inputs every scale is a
  positive real, a nonnegative finite factor distributes over a finite sum of extended reals, and the four block sums
  are the sum over the whole contracted axis: the two agree.
-/
import proofs.«165695_j60069412602522_2_alg».proof.Defs
import proofs.«165695_j60069412602522_2_alg».proof.Proof.Gen.Kernel
import proofs.«165695_j60069412602522_2_alg».proof.Proof.Gen.KernelIdeal
import proofs.«165695_j60069412602522_2_alg».proof.Proof.Gen.ReferenceIdeal
import proofs.«165695_j60069412602522_2_alg».proof.Proof.Gen.Pre_finite_inputs
import proofs.«165695_j60069412602522_2_alg».proof.Proof.BFrameRun
import proofs.«165695_j60069412602522_2_alg».proof.Proof.KerValueAll
import proofs.«165695_j60069412602522_2_alg».proof.Proof.RefValue
import proofs.«165695_j60069412602522_2_alg».proof.Proof.Algebra
import proofs.«165695_j60069412602522_2_alg».proof.Proof.Finite
import Idealize.ShloMosaic.Adequacy
import Idealize.ShloMosaic.Init

noncomputable section

namespace Cert.Proof

open Idealize.ShloMosaic Idealize.ShloMosaic.TcCoe Idealize.SL.Sem

/-- The kernel's program read word by word runs to the end with its arguments unchanged. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- On the extended reals, from memories agreeing on the two arguments, both programs end with the product of the
    de-quantised matrices in their result arrays: the reference by its run, the kernel by its three regions' values
    and, the inputs being finite, the distributive law. -/
theorem algebraic : Cert.algebraic_KernelIdeal_ReferenceIdeal := by
  intro m ρ m' ρ' hpre hagree
  refine ⟨fun c => (fun i => Cert.QuantDot.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) (i 1)), ?_, ?_⟩
  · refine (θ_run Cert.KernelIdeal.defs _ _).mono (fun _ h c => ⟨(h c).1.trans ?_, (h c).2.1, (h c).2.2⟩)
      (Cert.KernelIdeal.Hand.run_value (F := Ideal) m ρ)
    rw [Cert.KernelIdeal.Hand.kernel_value m ρ c]
    obtain ⟨hl, hr⟩ := Cert.QuantDot.entries_real_of_pre _ _ (hpre c)
    funext i
    exact Cert.QuantDot.kerOut_eq_refOut _ _ hl hr (i 0) (i 1)
  · refine (θ_run Cert.ReferenceIdeal.defs _ _).mono (fun _ h c => ⟨(h c).1.trans ?_, (h c).2.1, (h c).2.2⟩)
      (Cert.ReferenceIdeal.RefValue.run_refOut m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
